-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000 : Shape := ⟨1, ![640000]⟩
abbrev S10000 : Shape := ⟨1, ![10000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg7 : FVec F S128 .f32) (main_arg8 : FVec F S128x1 .f32) (main_arg9 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg8
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg9
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S10000x128 .f32) (main_arg1 : IVec S640000 32) (main_arg2 : IVec S640000 32) (main_arg3 : IVec S10000 32) (main_arg4 : FVec F S128x128 .f32) (main_arg5 : FVec F S128 .f32) (main_arg6 : FVec F S128x128 .f32) (main_arg7 : FVec F S128 .f32) (main_arg8 : FVec F S128x1 .f32) (main_arg9 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_v13 main_v16
-- ==== Kernel.lean ====
abbrev S10000x128 : Shape := ⟨2, ![10000, 128]⟩
abbrev S640000 : Shape := ⟨1, ![640000]⟩
abbrev S10000 : Shape := ⟨1, ![10000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S640000x1 : Shape := ⟨2, ![640000, 1]⟩
abbrev S10000x1 : Shape := ⟨2, ![10000, 1]⟩
abbrev S640000x128 : Shape := ⟨2, ![640000, 128]⟩
abbrev S1000x128 : Shape := ⟨2, ![1000, 128]⟩
abbrev S1x128 : Shape := ⟨2, ![1, 128]⟩
abbrev S64 : Shape := ⟨1, ![64]⟩
abbrev S64x128 : Shape := ⟨2, ![64, 128]⟩
abbrev S64x1 : Shape := ⟨2, ![64, 1]⟩
abbrev S1x1 : Shape := ⟨2, ![1, 1]⟩

abbrev nBuf : Space → Nat
  | .hbm => 101
  | .vmem => 12
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S10000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S_, .f32⟩
  | .hbm, ⟨11, _⟩ => ⟨S640000, .f32⟩
  | .hbm, ⟨12, _⟩ => ⟨S_, .f32⟩
  | .hbm, ⟨13, _⟩ => ⟨S10000, .f32⟩
  | .hbm, ⟨14, _⟩ => ⟨S640000x1, .i32⟩
  | .hbm, ⟨15, _⟩ => ⟨S10000, .f32⟩
  | .hbm, ⟨16, _⟩ => ⟨S_, .f32⟩
  | .hbm, ⟨17, _⟩ => ⟨S10000, .f32⟩
  | .hbm, ⟨18, _⟩ => ⟨S640000x1, .i32⟩
  | .hbm, ⟨19, _⟩ => ⟨S10000, .f32⟩
  | .hbm, ⟨20, _⟩ => ⟨S_, .f32⟩
  | .hbm, ⟨21, _⟩ => ⟨S10000, .f32⟩
  | .hbm, ⟨22, _⟩ => ⟨S10000, .i1⟩
  | .hbm, ⟨23, _⟩ => ⟨S_, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S_, .f32⟩
  | .hbm, ⟨31, _⟩ => ⟨S10000, .f32⟩
  | .hbm, ⟨32, _⟩ => ⟨S10000, .i1⟩
  | .hbm, ⟨33, _⟩ => ⟨S_, .f32⟩
  | .hbm, ⟨34, _⟩ => ⟨S_, .f32⟩
  | .hbm, ⟨35, _⟩ => ⟨S10000, .f32⟩
  | .hbm, ⟨36, _⟩ => ⟨S10000, .f32⟩
  | .hbm, ⟨37, _⟩ => ⟨S_, .f32⟩
  | .hbm, ⟨38, _⟩ => ⟨S10000, .f32⟩
  | .hbm, ⟨39, _⟩ => ⟨S10000, .f32⟩
  | .hbm, ⟨40, _⟩ => ⟨S10000x1, .f32⟩
  | .hbm, ⟨41, _⟩ => ⟨S10000x128, .f32⟩
  | .hbm, ⟨42, _⟩ => ⟨S10000x128, .f32⟩
  | .hbm, ⟨43, _⟩ => ⟨S_, .i32⟩
  | .hbm, ⟨44, _⟩ => ⟨S640000, .i32⟩
  | .hbm, ⟨45, _⟩ => ⟨S640000, .i1⟩
  | .hbm, ⟨46, _⟩ => ⟨S_, .i32⟩
  | .hbm, ⟨47, _⟩ => ⟨S640000, .i32⟩
  | .hbm, ⟨48, _⟩ => ⟨S640000, .i32⟩
  | .hbm, ⟨49, _⟩ => ⟨S640000, .i32⟩
  | .hbm, ⟨50, _⟩ => ⟨S640000x1, .i32⟩
  | .hbm, ⟨51, _⟩ => ⟨S640000x128, .f32⟩
  | .hbm, ⟨52, _⟩ => ⟨S_, .f32⟩
  | .hbm, ⟨53, _⟩ => ⟨S10000x128, .f32⟩
  | .hbm, ⟨54, _⟩ => ⟨S640000x1, .i32⟩
  | .hbm, ⟨55, _⟩ => ⟨S10000x128, .f32⟩
  | .hbm, ⟨56, _⟩ => ⟨S10000x1, .f32⟩
  | .hbm, ⟨57, _⟩ => ⟨S10000x128, .f32⟩
  | .hbm, ⟨58, _⟩ => ⟨S10000x128, .f32⟩
  | .hbm, ⟨59, _⟩ => ⟨S10000x128, .f32⟩
  | .hbm, ⟨60, _⟩ => ⟨S10000x1, .f32⟩
  | .hbm, ⟨61, _⟩ => ⟨S10000x128, .f32⟩
  | .hbm, ⟨62, _⟩ => ⟨S10000x128, .f32⟩
  | .hbm, ⟨63, _⟩ => ⟨S_, .i32⟩
  | .hbm, ⟨64, _⟩ => ⟨S640000, .i32⟩
  | .hbm, ⟨65, _⟩ => ⟨S640000, .i1⟩
  | .hbm, ⟨66, _⟩ => ⟨S_, .i32⟩
  | .hbm, ⟨67, _⟩ => ⟨S640000, .i32⟩
  | .hbm, ⟨68, _⟩ => ⟨S640000, .i32⟩
  | .hbm, ⟨69, _⟩ => ⟨S640000, .i32⟩
  | .hbm, ⟨70, _⟩ => ⟨S640000x1, .i32⟩
  | .hbm, ⟨71, _⟩ => ⟨S640000x128, .f32⟩
  | .hbm, ⟨72, _⟩ => ⟨S_, .f32⟩
  | .hbm, ⟨73, _⟩ => ⟨S10000x128, .f32⟩
  | .hbm, ⟨74, _⟩ => ⟨S640000x1, .i32⟩
  | .hbm, ⟨75, _⟩ => ⟨S10000x128, .f32⟩
  | .hbm, ⟨76, _⟩ => ⟨S10000x1, .f32⟩
  | .hbm, ⟨77, _⟩ => ⟨S10000x128, .f32⟩
  | .hbm, ⟨78, _⟩ => ⟨S10000x128, .f32⟩
  | .hbm, ⟨79, _⟩ => ⟨S10000x128, .f32⟩
  | .hbm, ⟨80, _⟩ => ⟨S_, .f32⟩
  | .hbm, ⟨81, _⟩ => ⟨S10000, .f32⟩
  | .hbm, ⟨82, _⟩ => ⟨S_, .f32⟩
  | .hbm, ⟨83, _⟩ => ⟨S64, .f32⟩
  | .hbm, ⟨84, _⟩ => ⟨S10000x1, .i32⟩
  | .hbm, ⟨85, _⟩ => ⟨S64, .f32⟩
  | .hbm, ⟨86, _⟩ => ⟨S_, .f32⟩
  | .hbm, ⟨87, _⟩ => ⟨S64x128, .f32⟩
  | .hbm, ⟨88, _⟩ => ⟨S10000x1, .i32⟩
  | .hbm, ⟨89, _⟩ => ⟨S64x128, .f32⟩
  | .hbm, ⟨90, _⟩ => ⟨S_, .f32⟩
  | .hbm, ⟨91, _⟩ => ⟨S64, .f32⟩
  | .hbm, ⟨92, _⟩ => ⟨S64, .f32⟩
  | .hbm, ⟨93, _⟩ => ⟨S64x1, .f32⟩
  | .hbm, ⟨94, _⟩ => ⟨S64x128, .f32⟩
  | .hbm, ⟨95, _⟩ => ⟨S64x128, .f32⟩
  | .hbm, ⟨96, _⟩ => ⟨S64x1, .f32⟩
  | .hbm, ⟨97, _⟩ => ⟨S1x1, .f32⟩
  | .hbm, ⟨98, _⟩ => ⟨S64x1, .f32⟩
  | .hbm, ⟨99, _⟩ => ⟨S64x1, .f32⟩
  | .hbm, ⟨100, _⟩ => ⟨S64, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S128x128, .f32⟩
  | .local _ .vmem, ⟨9, _⟩ => ⟨S128, .f32⟩
  | .local _ .vmem, ⟨10, _⟩ => ⟨S1000x128, .f32⟩
  | .local _ .vmem, ⟨11, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v9 : Ref sig .tc := ⟨.hbm, 26, rfl⟩
abbrev main_cst_4 : Ref sig .tc := ⟨.hbm, 27, rfl⟩
abbrev main_v10 : Ref sig .tc := ⟨.hbm, 28, rfl⟩
abbrev main_v11 : Ref sig .tc := ⟨.hbm, 29, rfl⟩
abbrev main_cst_5 : Ref sig .tc := ⟨.hbm, 30, rfl⟩
abbrev main_v12 : Ref sig .tc := ⟨.hbm, 31, rfl⟩
abbrev main_v13 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_v14 : Ref sig .tc := ⟨.hbm, 36, rfl⟩
abbrev main_cst_7 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c : Ref sig .tc := ⟨.hbm, 43, rfl⟩
abbrev main_v20 : Ref sig .tc := ⟨.hbm, 44, rfl⟩
abbrev main_v21 : Ref sig .tc := ⟨.hbm, 45, rfl⟩
abbrev main_c_8 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_9 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_10 : Ref sig .tc := ⟨.hbm, 63, rfl⟩
abbrev main_v37 : Ref sig .tc := ⟨.hbm, 64, rfl⟩
abbrev main_v38 : Ref sig .tc := ⟨.hbm, 65, rfl⟩
abbrev main_c_11 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_12 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_13 : Ref sig .tc := ⟨.hbm, 80, rfl⟩
abbrev main_v51 : Ref sig .tc := ⟨.hbm, 81, rfl⟩
abbrev main_cst_14 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_15 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_16 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  scatter_S10000_S640000x1_S640000_n_0_0_1_wf : ScatterDims.WF S10000 S640000x1 S640000 [] [0] [0] 1
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S1000x128_S128x128_S1000x128_1_0_0_1_n_n_wf : DotDims.WF S1000x128 S128x128 S1000x128 [1] [0] [0] [1] [] []
  scatter_S64_S10000x1_S10000_n_0_0_1_wf : ScatterDims.WF S64 S10000x1 S10000 [] [0] [0] 1
  scatter_S64x128_S10000x1_S10000x128_1_0_0_1_wf : ScatterDims.WF S64x128 S10000x1 S10000x128 [1] [0] [0] 1
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S10000x128.size a
  hwx0_3 : ∀ i : grid0.Coords, EltTy.bits .f32 = 32 ∨ (Rect.block (s := S10000x128) S1000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S10000x128.size a
  hwx1_0 : ∀ i : grid1.Coords, EltTy.bits .f32 = 32 ∨ (Rect.block (s := S10000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S10000x128.size a
  hwx1_3 : ∀ i : grid1.Coords, EltTy.bits .f32 = 32 ∨ (Rect.block (s := S10000x128) S1000x128.size (cc1_transform_3 i) (hinb1_3 i)).WholeWords (EltTy.packing .f32)

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def scatter_S64_S10000x1_S10000_n_0_0_1 : ScatterDims S64 S10000x1 S10000 where
  updateWindowDims := []
  insertedWindowDims := [0]
  scatterDimsToOperandDims := [0]
  indexVectorDim := 1
  wf := scatter_S64_S10000x1_S10000_n_0_0_1_wf
def scatter_S64x128_S10000x1_S10000x128_1_0_0_1 : ScatterDims S64x128 S10000x1 S10000x128 where
  updateWindowDims := [1]
  insertedWindowDims := [0]
  scatterDimsToOperandDims := [0]
  indexVectorDim := 1
  wf := scatter_S64x128_S10000x1_S10000x128_1_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_v32) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v49) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x128 : Shape := ⟨2, ![10000, 128]⟩
abbrev S640000 : Shape := ⟨1, ![640000]⟩
abbrev S10000 : Shape := ⟨1, ![10000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S640000x1 : Shape := ⟨2, ![640000, 1]⟩
abbrev S10000x1 : Shape := ⟨2, ![10000, 1]⟩
abbrev S640000x128 : Shape := ⟨2, ![640000, 128]⟩
abbrev S1x128 : Shape := ⟨2, ![1, 128]⟩
abbrev S64 : Shape := ⟨1, ![64]⟩
abbrev S64x128 : Shape := ⟨2, ![64, 128]⟩
abbrev S64x1 : Shape := ⟨2, ![64, 1]⟩
abbrev S1x1 : Shape := ⟨2, ![1, 1]⟩

abbrev nBuf : Space → Nat
  | .hbm => 113
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S10000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S_, .f32⟩
  | .hbm, ⟨11, _⟩ => ⟨S640000, .f32⟩
  | .hbm, ⟨12, _⟩ => ⟨S_, .f32⟩
  | .hbm, ⟨13, _⟩ => ⟨S10000, .f32⟩
  | .hbm, ⟨14, _⟩ => ⟨S640000x1, .i32⟩
  | .hbm, ⟨15, _⟩ => ⟨S10000, .f32⟩
  | .hbm, ⟨16, _⟩ => ⟨S_, .f32⟩
  | .hbm, ⟨17, _⟩ => ⟨S10000, .f32⟩
  | .hbm, ⟨18, _⟩ => ⟨S640000x1, .i32⟩
  | .hbm, ⟨19, _⟩ => ⟨S10000, .f32⟩
  | .hbm, ⟨20, _⟩ => ⟨S_, .f32⟩
  | .hbm, ⟨21, _⟩ => ⟨S10000, .f32⟩
  | .hbm, ⟨22, _⟩ => ⟨S10000, .i1⟩
  | .hbm, ⟨23, _⟩ => ⟨S_, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S_, .f32⟩
  | .hbm, ⟨31, _⟩ => ⟨S10000, .f32⟩
  | .hbm, ⟨32, _⟩ => ⟨S10000, .i1⟩
  | .hbm, ⟨33, _⟩ => ⟨S_, .f32⟩
  | .hbm, ⟨34, _⟩ => ⟨S_, .f32⟩
  | .hbm, ⟨35, _⟩ => ⟨S10000, .f32⟩
  | .hbm, ⟨36, _⟩ => ⟨S10000, .f32⟩
  | .hbm, ⟨37, _⟩ => ⟨S_, .f32⟩
  | .hbm, ⟨38, _⟩ => ⟨S10000, .f32⟩
  | .hbm, ⟨39, _⟩ => ⟨S10000, .f32⟩
  | .hbm, ⟨40, _⟩ => ⟨S10000x1, .f32⟩
  | .hbm, ⟨41, _⟩ => ⟨S10000x128, .f32⟩
  | .hbm, ⟨42, _⟩ => ⟨S10000x128, .f32⟩
  | .hbm, ⟨43, _⟩ => ⟨S_, .i32⟩
  | .hbm, ⟨44, _⟩ => ⟨S640000, .i32⟩
  | .hbm, ⟨45, _⟩ => ⟨S640000, .i1⟩
  | .hbm, ⟨46, _⟩ => ⟨S_, .i32⟩
  | .hbm, ⟨47, _⟩ => ⟨S640000, .i32⟩
  | .hbm, ⟨48, _⟩ => ⟨S640000, .i32⟩
  | .hbm, ⟨49, _⟩ => ⟨S640000, .i32⟩
  | .hbm, ⟨50, _⟩ => ⟨S640000x1, .i32⟩
  | .hbm, ⟨51, _⟩ => ⟨S640000x128, .f32⟩
  | .hbm, ⟨52, _⟩ => ⟨S_, .f32⟩
  | .hbm, ⟨53, _⟩ => ⟨S10000x128, .f32⟩
  | .hbm, ⟨54, _⟩ => ⟨S640000x1, .i32⟩
  | .hbm, ⟨55, _⟩ => ⟨S10000x128, .f32⟩
  | .hbm, ⟨56, _⟩ => ⟨S10000x1, .f32⟩
  | .hbm, ⟨57, _⟩ => ⟨S10000x128, .f32⟩
  | .hbm, ⟨58, _⟩ => ⟨S10000x128, .f32⟩
  | .hbm, ⟨59, _⟩ => ⟨S10000x128, .f32⟩
  | .hbm, ⟨60, _⟩ => ⟨S1x128, .f32⟩
  | .hbm, ⟨61, _⟩ => ⟨S10000x128, .f32⟩
  | .hbm, ⟨62, _⟩ => ⟨S10000x128, .f32⟩
  | .hbm, ⟨63, _⟩ => ⟨S_, .f32⟩
  | .hbm, ⟨64, _⟩ => ⟨S10000x128, .f32⟩
  | .hbm, ⟨65, _⟩ => ⟨S10000x128, .f32⟩
  | .hbm, ⟨66, _⟩ => ⟨S10000x1, .f32⟩
  | .hbm, ⟨67, _⟩ => ⟨S10000x128, .f32⟩
  | .hbm, ⟨68, _⟩ => ⟨S10000x128, .f32⟩
  | .hbm, ⟨69, _⟩ => ⟨S_, .i32⟩
  | .hbm, ⟨70, _⟩ => ⟨S640000, .i32⟩
  | .hbm, ⟨71, _⟩ => ⟨S640000, .i1⟩
  | .hbm, ⟨72, _⟩ => ⟨S_, .i32⟩
  | .hbm, ⟨73, _⟩ => ⟨S640000, .i32⟩
  | .hbm, ⟨74, _⟩ => ⟨S640000, .i32⟩
  | .hbm, ⟨75, _⟩ => ⟨S640000, .i32⟩
  | .hbm, ⟨76, _⟩ => ⟨S640000x1, .i32⟩
  | .hbm, ⟨77, _⟩ => ⟨S640000x128, .f32⟩
  | .hbm, ⟨78, _⟩ => ⟨S_, .f32⟩
  | .hbm, ⟨79, _⟩ => ⟨S10000x128, .f32⟩
  | .hbm, ⟨80, _⟩ => ⟨S640000x1, .i32⟩
  | .hbm, ⟨81, _⟩ => ⟨S10000x128, .f32⟩
  | .hbm, ⟨82, _⟩ => ⟨S10000x1, .f32⟩
  | .hbm, ⟨83, _⟩ => ⟨S10000x128, .f32⟩
  | .hbm, ⟨84, _⟩ => ⟨S10000x128, .f32⟩
  | .hbm, ⟨85, _⟩ => ⟨S10000x128, .f32⟩
  | .hbm, ⟨86, _⟩ => ⟨S1x128, .f32⟩
  | .hbm, ⟨87, _⟩ => ⟨S10000x128, .f32⟩
  | .hbm, ⟨88, _⟩ => ⟨S10000x128, .f32⟩
  | .hbm, ⟨89, _⟩ => ⟨S_, .f32⟩
  | .hbm, ⟨90, _⟩ => ⟨S10000x128, .f32⟩
  | .hbm, ⟨91, _⟩ => ⟨S10000x128, .f32⟩
  | .hbm, ⟨92, _⟩ => ⟨S_, .f32⟩
  | .hbm, ⟨93, _⟩ => ⟨S10000, .f32⟩
  | .hbm, ⟨94, _⟩ => ⟨S_, .f32⟩
  | .hbm, ⟨95, _⟩ => ⟨S64, .f32⟩
  | .hbm, ⟨96, _⟩ => ⟨S10000x1, .i32⟩
  | .hbm, ⟨97, _⟩ => ⟨S64, .f32⟩
  | .hbm, ⟨98, _⟩ => ⟨S_, .f32⟩
  | .hbm, ⟨99, _⟩ => ⟨S64x128, .f32⟩
  | .hbm, ⟨100, _⟩ => ⟨S10000x1, .i32⟩
  | .hbm, ⟨101, _⟩ => ⟨S64x128, .f32⟩
  | .hbm, ⟨102, _⟩ => ⟨S_, .f32⟩
  | .hbm, ⟨103, _⟩ => ⟨S64, .f32⟩
  | .hbm, ⟨104, _⟩ => ⟨S64, .f32⟩
  | .hbm, ⟨105, _⟩ => ⟨S64x1, .f32⟩
  | .hbm, ⟨106, _⟩ => ⟨S64x128, .f32⟩
  | .hbm, ⟨107, _⟩ => ⟨S64x128, .f32⟩
  | .hbm, ⟨108, _⟩ => ⟨S64x1, .f32⟩
  | .hbm, ⟨109, _⟩ => ⟨S1x1, .f32⟩
  | .hbm, ⟨110, _⟩ => ⟨S64x1, .f32⟩
  | .hbm, ⟨111, _⟩ => ⟨S64x1, .f32⟩
  | .hbm, ⟨112, _⟩ => ⟨S64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v9 : Ref sig .tc := ⟨.hbm, 26, rfl⟩
abbrev main_cst_4 : Ref sig .tc := ⟨.hbm, 27, rfl⟩
abbrev main_v10 : Ref sig .tc := ⟨.hbm, 28, rfl⟩
abbrev main_v11 : Ref sig .tc := ⟨.hbm, 29, rfl⟩
abbrev main_cst_5 : Ref sig .tc := ⟨.hbm, 30, rfl⟩
abbrev main_v12 : Ref sig .tc := ⟨.hbm, 31, rfl⟩
abbrev main_v13 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_v14 : Ref sig .tc := ⟨.hbm, 36, rfl⟩
abbrev main_cst_7 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c : Ref sig .tc := ⟨.hbm, 43, rfl⟩
abbrev main_v20 : Ref sig .tc := ⟨.hbm, 44, rfl⟩
abbrev main_v21 : Ref sig .tc := ⟨.hbm, 45, rfl⟩
abbrev main_c_8 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_9 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call2_cst : Ref sig .tc := ⟨.hbm, 63, rfl⟩
abbrev main_call2_v0 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_c_10 : Ref sig .tc := ⟨.hbm, 69, rfl⟩
abbrev main_v41 : Ref sig .tc := ⟨.hbm, 70, rfl⟩
abbrev main_v42 : Ref sig .tc := ⟨.hbm, 71, rfl⟩
abbrev main_c_11 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_12 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_call3_cst : Ref sig .tc := ⟨.hbm, 89, rfl⟩
abbrev main_call3_v0 : Ref sig .tc := ⟨.hbm, 90, rfl⟩
abbrev main_v58 : Ref sig .tc := ⟨.hbm, 91, rfl⟩
abbrev main_cst_13 : Ref sig .tc := ⟨.hbm, 92, rfl⟩
abbrev main_v59 : Ref sig .tc := ⟨.hbm, 93, rfl⟩
abbrev main_cst_14 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_15 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_16 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  scatter_S10000_S640000x1_S640000_n_0_0_1_wf : ScatterDims.WF S10000 S640000x1 S640000 [] [0] [0] 1
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S10000x128_S128x128_S10000x128_1_0_0_1_n_n_wf : DotDims.WF S10000x128 S128x128 S10000x128 [1] [0] [0] [1] [] []
  scatter_S64_S10000x1_S10000_n_0_0_1_wf : ScatterDims.WF S64 S10000x1 S10000 [] [0] [0] 1
  scatter_S64x128_S10000x1_S10000x128_1_0_0_1_wf : ScatterDims.WF S64x128 S10000x1 S10000x128 [1] [0] [0] 1
  dot_S64x128_S128x1_S64x1_1_0_0_1_n_n_wf : DotDims.WF S64x128 S128x1 S64x1 [1] [0] [0] [1] [] []

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S64_S10000x1_S10000_n_0_0_1 : ScatterDims S64 S10000x1 S10000 where
  updateWindowDims := []
  insertedWindowDims := [0]
  scatterDimsToOperandDims := [0]
  indexVectorDim := 1
  wf := scatter_S64_S10000x1_S10000_n_0_0_1_wf
def scatter_S64x128_S10000x1_S10000x128_1_0_0_1 : ScatterDims S64x128 S10000x1 S10000x128 where
  updateWindowDims := [1]
  insertedWindowDims := [0]
  scatterDimsToOperandDims := [0]
  indexVectorDim := 1
  wf := scatter_S64x128_S10000x1_S10000x128_1_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.Spec.lean ====
/-
  The functions both programs compute, stated once over the reference's shapes and dimension records.
  A two-layer graph convolution with symmetric degree normalisation, mean pooling per graph and a dense head:

  * `norm idx`   : per node, (number of edges whose endpoint list `idx` names the node, or 1 when there is none) ^ (-1/2);
  * `agg x a1 a2 ns nd` : scale row n of `x` by `ns n`, gather the rows named by the edge sources `a1`
                     (a negative index wrapped by the node count), add each gathered row into the row named by the edge
                     destination `a2`, and scale row n of the sum by `nd n`;
  * `layer x w b` : max (x · w + b, 0), the bias added to every row;
  * `head h a3 a8 a9` : sum the rows of `h` per graph id `a3`, divide by max (nodes in the graph, 1), multiply by the
                     column `a8`, add the scalar `a9`, and drop the unit axis;
  * `out` : their composition, the value both programs return.
-/
import proofs.«131659_j24068996727451_1_alg».proof.ReferenceIdeal

noncomputable section

namespace Cert.Spec

open Idealize.ShloMosaic Cert.ReferenceIdeal
open Cert.ReferenceIdeal.Facts₀ Cert.ReferenceIdeal.Facts

variable {F : FTy → Type} [FloatOps F] [Cert.ReferenceIdeal.Facts]

/-- Degree normalisation: the count of edges at each node, replaced by 1 where it is not positive, to the power -1/2. -/
def norm (idx : (⟨S640000, .i32⟩ : BufTy).Contents (Elt F)) : (⟨S10000, .f32⟩ : BufTy).Contents (Elt F) :=
  (Host.powf (select (cmpf .ogt (Host.scatterAdd scatter_S10000_S640000x1_S640000_n_0_0_1 (broadcastInDim S10000 ![] bcast_S_S10000 (constant (F := F) S_ .f32 0x00000000#32)) (broadcastInDim S640000x1 ![0] bcast_S640000_S640000x1_0 idx) (broadcastInDim S640000 ![] bcast_S_S640000 (constant (F := F) S_ .f32 0x3F800000#32))) (broadcastInDim S10000 ![] bcast_S_S10000 (constant (F := F) S_ .f32 0x00000000#32))) (Host.scatterAdd scatter_S10000_S640000x1_S640000_n_0_0_1 (broadcastInDim S10000 ![] bcast_S_S10000 (constant (F := F) S_ .f32 0x00000000#32)) (broadcastInDim S640000x1 ![0] bcast_S640000_S640000x1_0 idx) (broadcastInDim S640000 ![] bcast_S_S640000 (constant (F := F) S_ .f32 0x3F800000#32))) (broadcastInDim S10000 ![] bcast_S_S10000 (id (constant (F := F) S_ .f32 0x3F800000#32)))) (broadcastInDim S10000 ![] bcast_S_S10000 (constant (F := F) S_ .f32 0xBF000000#32)))

/-- Normalised neighbourhood sum: rows scaled by `ns`, gathered along the edges' sources, summed into the edges'
    destinations, rows scaled by `nd`. -/
def agg (x : (⟨S10000x128, .f32⟩ : BufTy).Contents (Elt F)) (a1 a2 : (⟨S640000, .i32⟩ : BufTy).Contents (Elt F))
    (ns nd : (⟨S10000, .f32⟩ : BufTy).Contents (Elt F)) : (⟨S10000x128, .f32⟩ : BufTy).Contents (Elt F) :=
  (mulf (Host.scatterAdd scatter_S10000x128_S640000x1_S640000x128_1_0_0_1 (broadcastInDim S10000x128 ![] bcast_S_S10000x128 (constant (F := F) S_ .f32 0x00000000#32)) (broadcastInDim S640000x1 ![0] bcast_S640000_S640000x1_0 a2) (Host.gather gather_S10000x128_S640000x1_S640000x128_1_0_n_n_0_1_1128 (mulf x (broadcastInDim S10000x128 ![0, 1] bcast_S10000x1_S10000x128_0_1 (broadcastInDim S10000x1 ![0] bcast_S10000_S10000x1_0 ns))) (broadcastInDim S640000x1 ![0] bcast_S640000_S640000x1_0 (select (cmpi .slt a1 (broadcastInDim S640000 ![] bcast_S_S640000 (constantI S_ 32 0#32))) (addi a1 (broadcastInDim S640000 ![] bcast_S_S640000 (constantI S_ 32 10000#32))) a1)))) (broadcastInDim S10000x128 ![0, 1] bcast_S10000x1_S10000x128_0_1 (broadcastInDim S10000x1 ![0] bcast_S10000_S10000x1_0 nd)))

/-- The dense layer: the matrix product with `w`, the bias `b` added to every row, negative entries replaced by 0. -/
def layer (x : (⟨S10000x128, .f32⟩ : BufTy).Contents (Elt F)) (w : (⟨S128x128, .f32⟩ : BufTy).Contents (Elt F))
    (b : (⟨S128, .f32⟩ : BufTy).Contents (Elt F)) : (⟨S10000x128, .f32⟩ : BufTy).Contents (Elt F) :=
  (maximumf (addf (Host.dotGeneral dot_S10000x128_S128x128_S10000x128_1_0_0_1_n_n none x w) (broadcastInDim S10000x128 ![0, 1] bcast_S1x128_S10000x128_0_1 (broadcastInDim S1x128 ![1] bcast_S128_S1x128_1 b))) (broadcastInDim S10000x128 ![] bcast_S_S10000x128 (constant (F := F) S_ .f32 0x00000000#32)))

/-- Mean pooling per graph followed by the dense head with one output column. -/
def head (h : (⟨S10000x128, .f32⟩ : BufTy).Contents (Elt F)) (a3 : (⟨S10000, .i32⟩ : BufTy).Contents (Elt F))
    (a8 : (⟨S128x1, .f32⟩ : BufTy).Contents (Elt F)) (a9 : (⟨S1, .f32⟩ : BufTy).Contents (Elt F)) :
    (⟨S64, .f32⟩ : BufTy).Contents (Elt F) :=
  (shapeCast S64 (addf (Host.dotGeneral dot_S64x128_S128x1_S64x1_1_0_0_1_n_n none (Host.divf (Host.scatterAdd scatter_S64x128_S10000x1_S10000x128_1_0_0_1 (broadcastInDim S64x128 ![] bcast_S_S64x128 (constant (F := F) S_ .f32 0x00000000#32)) (broadcastInDim S10000x1 ![0] bcast_S10000_S10000x1_0 a3) h) (broadcastInDim S64x128 ![0, 1] bcast_S64x1_S64x128_0_1 (broadcastInDim S64x1 ![0] bcast_S64_S64x1_0 (maximumf (Host.scatterAdd scatter_S64_S10000x1_S10000_n_0_0_1 (broadcastInDim S64 ![] bcast_S_S64 (constant (F := F) S_ .f32 0x00000000#32)) (broadcastInDim S10000x1 ![0] bcast_S10000_S10000x1_0 a3) (broadcastInDim S10000 ![] bcast_S_S10000 (constant (F := F) S_ .f32 0x3F800000#32))) (broadcastInDim S64 ![] bcast_S_S64 (constant (F := F) S_ .f32 0x3F800000#32)))))) a8) (broadcastInDim S64x1 ![0, 1] bcast_S1x1_S64x1_0_1 (broadcastInDim S1x1 ![1] bcast_S1_S1x1_1 a9))) shapeCasts_S64x1_S64)

/-- The whole network as one function of the ten arguments. -/
def out (a0 : (⟨S10000x128, .f32⟩ : BufTy).Contents (Elt F)) (a1 a2 : (⟨S640000, .i32⟩ : BufTy).Contents (Elt F))
    (a3 : (⟨S10000, .i32⟩ : BufTy).Contents (Elt F))
    (a4 : (⟨S128x128, .f32⟩ : BufTy).Contents (Elt F)) (a5 : (⟨S128, .f32⟩ : BufTy).Contents (Elt F))
    (a6 : (⟨S128x128, .f32⟩ : BufTy).Contents (Elt F)) (a7 : (⟨S128, .f32⟩ : BufTy).Contents (Elt F))
    (a8 : (⟨S128x1, .f32⟩ : BufTy).Contents (Elt F)) (a9 : (⟨S1, .f32⟩ : BufTy).Contents (Elt F)) :
    (⟨S64, .f32⟩ : BufTy).Contents (Elt F) :=
  head (layer (agg (layer (agg a0 a1 a2 (norm a1) (norm a2)) a4 a5) a1 a2 (norm a1) (norm a2)) a6 a7) a3 a8 a9

end Cert.Spec

end
-- ==== Proof.RefRun.lean ====
/-
  The reference program's run, read back. Its @main is a straight line of 103 host operations (the two `_where`
  calls and the two `relu` calls listed inline at their call sites over the calls' buffers): from any launch
  memory every weakly fair execution terminates with each buffer at the operations' fold over the launch
  contents. At the result buffer that fold is `Spec.out` of the ten argument arrays — degree normalisation,
  two rounds of normalised neighbourhood sum followed by a dense layer, mean pooling per graph and the dense
  head — and at an argument's buffer it is the argument, since no operation writes one.
-/
import proofs.«131659_j24068996727451_1_alg».proof.ReferenceIdeal
import proofs.«131659_j24068996727451_1_alg».proof.Proof.Gen.ReferenceIdeal
import proofs.«131659_j24068996727451_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in program order; a called function's operations stand at its call, over that call's buffers. -/
abbrev ops : List (HloOp τ sig (Elt F)) :=
  [ nullary main_cst (constant S_ .f32 0x3F800000#32),
    unary main_cst main_v0 (broadcastInDim S640000 ![] bcast_S_S640000),
    nullary main_cst_0 (constant S_ .f32 0x00000000#32),
    unary main_cst_0 main_v1 (broadcastInDim S10000 ![] bcast_S_S10000),
    unary main_arg1 main_v2 (broadcastInDim S640000x1 ![0] bcast_S640000_S640000x1_0),
    ternary main_v1 main_v2 main_v0 main_v3 (fun x i u => Host.scatterAdd scatter_S10000_S640000x1_S640000_n_0_0_1 x i u),
    nullary main_cst_1 (constant S_ .f32 0x00000000#32),
    unary main_cst_1 main_v4 (broadcastInDim S10000 ![] bcast_S_S10000),
    unary main_arg2 main_v5 (broadcastInDim S640000x1 ![0] bcast_S640000_S640000x1_0),
    ternary main_v4 main_v5 main_v0 main_v6 (fun x i u => Host.scatterAdd scatter_S10000_S640000x1_S640000_n_0_0_1 x i u),
    nullary main_cst_2 (constant S_ .f32 0x00000000#32),
    unary main_cst_2 main_v7 (broadcastInDim S10000 ![] bcast_S_S10000),
    binary main_v3 main_v7 main_v8 (cmpf .ogt),
    nullary main_cst_3 (constant S_ .f32 0x3F800000#32),
    TRef.unary (.of main_cst_3) main_call0.v0 id,
    TRef.unary main_call0.v0 main_call0.v1 (broadcastInDim S10000 ![] bcast_S_S10000),
    TRef.ternary (.of main_v8) (.of main_v3) main_call0.v1 main_call0.v2 select,
    nullary main_cst_4 (constant S_ .f32 0xBF000000#32),
    unary main_cst_4 main_v10 (broadcastInDim S10000 ![] bcast_S_S10000),
    binary main_v9 main_v10 main_v11 (Host.powf),
    nullary main_cst_5 (constant S_ .f32 0x00000000#32),
    unary main_cst_5 main_v12 (broadcastInDim S10000 ![] bcast_S_S10000),
    binary main_v6 main_v12 main_v13 (cmpf .ogt),
    nullary main_cst_6 (constant S_ .f32 0x3F800000#32),
    TRef.unary (.of main_cst_6) main_call1.v0 id,
    TRef.unary main_call1.v0 main_call1.v1 (broadcastInDim S10000 ![] bcast_S_S10000),
    TRef.ternary (.of main_v13) (.of main_v6) main_call1.v1 main_call1.v2 select,
    nullary main_cst_7 (constant S_ .f32 0xBF000000#32),
    unary main_cst_7 main_v15 (broadcastInDim S10000 ![] bcast_S_S10000),
    binary main_v14 main_v15 main_v16 (Host.powf),
    unary main_v11 main_v17 (broadcastInDim S10000x1 ![0] bcast_S10000_S10000x1_0),
    unary main_v17 main_v18 (broadcastInDim S10000x128 ![0, 1] bcast_S10000x1_S10000x128_0_1),
    binary main_arg0 main_v18 main_v19 (mulf),
    nullary main_c (constantI S_ 32 0#32),
    unary main_c main_v20 (broadcastInDim S640000 ![] bcast_S_S640000),
    binary main_arg1 main_v20 main_v21 (cmpi .slt),
    nullary main_c_8 (constantI S_ 32 10000#32),
    unary main_c_8 main_v22 (broadcastInDim S640000 ![] bcast_S_S640000),
    binary main_arg1 main_v22 main_v23 (addi),
    ternary main_v21 main_v23 main_arg1 main_v24 (select),
    unary main_v24 main_v25 (broadcastInDim S640000x1 ![0] bcast_S640000_S640000x1_0),
    binary main_v19 main_v25 main_v26 (fun x i => Host.gather gather_S10000x128_S640000x1_S640000x128_1_0_n_n_0_1_1128 x i),
    nullary main_cst_9 (constant S_ .f32 0x00000000#32),
    unary main_cst_9 main_v27 (broadcastInDim S10000x128 ![] bcast_S_S10000x128),
    unary main_arg2 main_v28 (broadcastInDim S640000x1 ![0] bcast_S640000_S640000x1_0),
    ternary main_v27 main_v28 main_v26 main_v29 (fun x i u => Host.scatterAdd scatter_S10000x128_S640000x1_S640000x128_1_0_0_1 x i u),
    unary main_v16 main_v30 (broadcastInDim S10000x1 ![0] bcast_S10000_S10000x1_0),
    unary main_v30 main_v31 (broadcastInDim S10000x128 ![0, 1] bcast_S10000x1_S10000x128_0_1),
    binary main_v29 main_v31 main_v32 (mulf),
    binary main_v32 main_arg4 main_v33 (fun l r => Host.dotGeneral dot_S10000x128_S128x128_S10000x128_1_0_0_1_n_n none l r),
    unary main_arg5 main_v34 (broadcastInDim S1x128 ![1] bcast_S128_S1x128_1),
    unary main_v34 main_v35 (broadcastInDim S10000x128 ![0, 1] bcast_S1x128_S10000x128_0_1),
    binary main_v33 main_v35 main_v36 (addf),
    TRef.nullary main_call2.cst (constant S_ .f32 0x00000000#32),
    TRef.unary main_call2.cst main_call2.v0 (broadcastInDim S10000x128 ![] bcast_S_S10000x128),
    TRef.binary (.of main_v36) main_call2.v0 main_call2.v1 maximumf,
    unary main_v11 main_v38 (broadcastInDim S10000x1 ![0] bcast_S10000_S10000x1_0),
    unary main_v38 main_v39 (broadcastInDim S10000x128 ![0, 1] bcast_S10000x1_S10000x128_0_1),
    binary main_v37 main_v39 main_v40 (mulf),
    nullary main_c_10 (constantI S_ 32 0#32),
    unary main_c_10 main_v41 (broadcastInDim S640000 ![] bcast_S_S640000),
    binary main_arg1 main_v41 main_v42 (cmpi .slt),
    nullary main_c_11 (constantI S_ 32 10000#32),
    unary main_c_11 main_v43 (broadcastInDim S640000 ![] bcast_S_S640000),
    binary main_arg1 main_v43 main_v44 (addi),
    ternary main_v42 main_v44 main_arg1 main_v45 (select),
    unary main_v45 main_v46 (broadcastInDim S640000x1 ![0] bcast_S640000_S640000x1_0),
    binary main_v40 main_v46 main_v47 (fun x i => Host.gather gather_S10000x128_S640000x1_S640000x128_1_0_n_n_0_1_1128 x i),
    nullary main_cst_12 (constant S_ .f32 0x00000000#32),
    unary main_cst_12 main_v48 (broadcastInDim S10000x128 ![] bcast_S_S10000x128),
    unary main_arg2 main_v49 (broadcastInDim S640000x1 ![0] bcast_S640000_S640000x1_0),
    ternary main_v48 main_v49 main_v47 main_v50 (fun x i u => Host.scatterAdd scatter_S10000x128_S640000x1_S640000x128_1_0_0_1 x i u),
    unary main_v16 main_v51 (broadcastInDim S10000x1 ![0] bcast_S10000_S10000x1_0),
    unary main_v51 main_v52 (broadcastInDim S10000x128 ![0, 1] bcast_S10000x1_S10000x128_0_1),
    binary main_v50 main_v52 main_v53 (mulf),
    binary main_v53 main_arg6 main_v54 (fun l r => Host.dotGeneral dot_S10000x128_S128x128_S10000x128_1_0_0_1_n_n none l r),
    unary main_arg7 main_v55 (broadcastInDim S1x128 ![1] bcast_S128_S1x128_1),
    unary main_v55 main_v56 (broadcastInDim S10000x128 ![0, 1] bcast_S1x128_S10000x128_0_1),
    binary main_v54 main_v56 main_v57 (addf),
    TRef.nullary main_call3.cst (constant S_ .f32 0x00000000#32),
    TRef.unary main_call3.cst main_call3.v0 (broadcastInDim S10000x128 ![] bcast_S_S10000x128),
    TRef.binary (.of main_v57) main_call3.v0 main_call3.v1 maximumf,
    nullary main_cst_13 (constant S_ .f32 0x3F800000#32),
    unary main_cst_13 main_v59 (broadcastInDim S10000 ![] bcast_S_S10000),
    nullary main_cst_14 (constant S_ .f32 0x00000000#32),
    unary main_cst_14 main_v60 (broadcastInDim S64 ![] bcast_S_S64),
    unary main_arg3 main_v61 (broadcastInDim S10000x1 ![0] bcast_S10000_S10000x1_0),
    ternary main_v60 main_v61 main_v59 main_v62 (fun x i u => Host.scatterAdd scatter_S64_S10000x1_S10000_n_0_0_1 x i u),
    nullary main_cst_15 (constant S_ .f32 0x00000000#32),
    unary main_cst_15 main_v63 (broadcastInDim S64x128 ![] bcast_S_S64x128),
    unary main_arg3 main_v64 (broadcastInDim S10000x1 ![0] bcast_S10000_S10000x1_0),
    ternary main_v63 main_v64 main_v58 main_v65 (fun x i u => Host.scatterAdd scatter_S64x128_S10000x1_S10000x128_1_0_0_1 x i u),
    nullary main_cst_16 (constant S_ .f32 0x3F800000#32),
    unary main_cst_16 main_v66 (broadcastInDim S64 ![] bcast_S_S64),
    binary main_v62 main_v66 main_v67 (maximumf),
    unary main_v67 main_v68 (broadcastInDim S64x1 ![0] bcast_S64_S64x1_0),
    unary main_v68 main_v69 (broadcastInDim S64x128 ![0, 1] bcast_S64x1_S64x128_0_1),
    binary main_v65 main_v69 main_v70 (Host.divf),
    binary main_v70 main_arg8 main_v71 (fun l r => Host.dotGeneral dot_S64x128_S128x1_S64x1_1_0_0_1_n_n none l r),
    unary main_arg9 main_v72 (broadcastInDim S1x1 ![1] bcast_S1_S1x1_1),
    unary main_v72 main_v73 (broadcastInDim S64x1 ![0, 1] bcast_S1x1_S64x1_0_1),
    binary main_v71 main_v73 main_v74 (addf),
    reshape main_v74 main_v75 rfl shapeCasts_S64x1_S64 ]

set_option maxRecDepth 8192 in
set_option maxHeartbeats 4000000 in
/-- @main is that straight line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., unary_bufs_sub .., ternary_bufs_sub .., nullary_bufs_sub .., unary_bufs_sub ..,
    binary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., nullary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., unary_bufs_sub .., unary_bufs_sub ..,
    binary_bufs_sub .., binary_bufs_sub .., unary_bufs_sub .., unary_bufs_sub .., binary_bufs_sub .., nullary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    unary_bufs_sub .., unary_bufs_sub .., binary_bufs_sub .., binary_bufs_sub .., unary_bufs_sub .., unary_bufs_sub ..,
    binary_bufs_sub .., nullary_bufs_sub .., unary_bufs_sub .., binary_bufs_sub .., nullary_bufs_sub .., unary_bufs_sub ..,
    nullary_bufs_sub .., unary_bufs_sub .., unary_bufs_sub .., ternary_bufs_sub .., nullary_bufs_sub .., unary_bufs_sub ..,
    unary_bufs_sub .., ternary_bufs_sub .., nullary_bufs_sub .., unary_bufs_sub .., binary_bufs_sub .., unary_bufs_sub ..,
    unary_bufs_sub .., binary_bufs_sub .., binary_bufs_sub .., unary_bufs_sub .., unary_bufs_sub .., binary_bufs_sub ..,
    reshape_bufs_sub ..⟩

/-- From any memory with zero counters every weakly fair execution of @main terminates, each buffer at the
    operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxRecDepth 8192 in
set_option maxHeartbeats 40000000 in
/-- The fold at the result buffer is the network's function of the argument arrays: each operation's result is
    its function of its operands' buffers, and composing them in program order is `Spec.out`. -/
theorem out_eq (V : Valuation τ sig (Elt F)) :
    after ops V (main_v75 : DevRef τ sig)
      = Cert.Spec.out (F := F) (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  after_results_simp <;> rfl

set_option maxRecDepth 8192 in
set_option maxHeartbeats 4000000 in
theorem arg0_eq (V : Valuation τ sig (Elt F)) : after ops V (main_arg0 : DevRef τ sig) = V (main_arg0 : DevRef τ sig) := by
  after_results_simp <;> rfl
set_option maxRecDepth 8192 in
set_option maxHeartbeats 4000000 in
theorem arg1_eq (V : Valuation τ sig (Elt F)) : after ops V (main_arg1 : DevRef τ sig) = V (main_arg1 : DevRef τ sig) := by
  after_results_simp <;> rfl
set_option maxRecDepth 8192 in
set_option maxHeartbeats 4000000 in
theorem arg2_eq (V : Valuation τ sig (Elt F)) : after ops V (main_arg2 : DevRef τ sig) = V (main_arg2 : DevRef τ sig) := by
  after_results_simp <;> rfl
set_option maxRecDepth 8192 in
set_option maxHeartbeats 4000000 in
theorem arg3_eq (V : Valuation τ sig (Elt F)) : after ops V (main_arg3 : DevRef τ sig) = V (main_arg3 : DevRef τ sig) := by
  after_results_simp <;> rfl
set_option maxRecDepth 8192 in
set_option maxHeartbeats 4000000 in
theorem arg4_eq (V : Valuation τ sig (Elt F)) : after ops V (main_arg4 : DevRef τ sig) = V (main_arg4 : DevRef τ sig) := by
  after_results_simp <;> rfl
set_option maxRecDepth 8192 in
set_option maxHeartbeats 4000000 in
theorem arg5_eq (V : Valuation τ sig (Elt F)) : after ops V (main_arg5 : DevRef τ sig) = V (main_arg5 : DevRef τ sig) := by
  after_results_simp <;> rfl
set_option maxRecDepth 8192 in
set_option maxHeartbeats 4000000 in
theorem arg6_eq (V : Valuation τ sig (Elt F)) : after ops V (main_arg6 : DevRef τ sig) = V (main_arg6 : DevRef τ sig) := by
  after_results_simp <;> rfl
set_option maxRecDepth 8192 in
set_option maxHeartbeats 4000000 in
theorem arg7_eq (V : Valuation τ sig (Elt F)) : after ops V (main_arg7 : DevRef τ sig) = V (main_arg7 : DevRef τ sig) := by
  after_results_simp <;> rfl
set_option maxRecDepth 8192 in
set_option maxHeartbeats 4000000 in
theorem arg8_eq (V : Valuation τ sig (Elt F)) : after ops V (main_arg8 : DevRef τ sig) = V (main_arg8 : DevRef τ sig) := by
  after_results_simp <;> rfl
set_option maxRecDepth 8192 in
set_option maxHeartbeats 4000000 in
theorem arg9_eq (V : Valuation τ sig (Elt F)) : after ops V (main_arg9 : DevRef τ sig) = V (main_arg9 : DevRef τ sig) := by
  after_results_simp <;> rfl

/-- The reference's run: the result at `Spec.out` of the launch contents of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v75)
        = Cert.Spec.out (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v75).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_fold m ρ)

end Cert.ReferenceIdeal.RefRun

end
-- ==== Proof.KernelRun.lean ====
/-
  The idealized kernel's run with its final buffers NAMED. @main is nine segments: five stretches of host
  operations, the first dense layer's pallas_call, a stretch, the second dense layer's pallas_call, a last stretch.
  The buffer contents at the segment boundaries are a fold from the launch memory: a host stretch applies its
  operations, a pallas_call replaces its output array by what its grid points write back and keeps every other
  buffer. Every weakly fair execution terminates with every buffer that outlives the kernels at the last
  boundary's contents; in particular the result buffer, and each argument at its launch contents.
-/
import proofs.«131659_j24068996727451_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every buffer that outlives the kernels at the
    contents the fold through the nine segments gives it. The launch theorem for a program of several regions takes:
    that @main is the segments' run; that no pipeline occurs twice; the pipelines' ghost state dealt at launch; that each
    segment is entered from what the one before leaves, the last leaving every such buffer at the last boundary's
    contents; that the launch memory is the first boundary's contents; and that buffers held at given contents are read
    off the final state at those contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    -- @main is the run of its nine segments
    (fun c Q => by rw [main_run m ρ c])
    -- the two pallas_calls are two different pipelines
    (by simp only [segs, Pipeline.Seg.pipes_host, Pipeline.Seg.pipes_region, Pipeline.Seg.pipes_nil]; decide)
    -- no core owes another anything, and nothing rides beside the cores
    (O₀ := 0) (hL := fun _ _ => rfl) (G := fun _ => iprop(emp))
    (u₀ := initOf (Pipeline.cells cfgs cellOf_inj) (Pipeline.launchToks cfgs cellOf_inj))
    (hu₀ := by
      -- the initial ghost state is the pipelines' own, and an empty resource per core is no resource
      iintro Hghost
      imodintro
      isplitl [Hghost]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hghost
      · iapply (show (BI.emp : sProp 𝕄) ⊢ bigSep Finset.univ (fun _ : Dev nD => (BI.emp : sProp 𝕄)) from by
          rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun c => by
        -- each boundary's contents are, by name, what the next segment is entered from; after the last stretch the
        -- buffers and the generator register are regrouped apart from the (empty) debts
        dsimp only [Pipeline.Seg.post, hseg, Pipeline.HostSeg.ofOps]
        iintro ⟨Hbufs, Hreg, Hdebt⟩
        isplitr [Hdebt]
        · isplitl [Hbufs]
          · iexact Hbufs
          · iexact Hreg
        · iexact Hdebt⟩)
    (hinit := by
      -- at launch each core holds its buffers at the launch memory, which is the first boundary's contents
      refine Pipeline.initEach L lv fun c => ?_
      rw [show unscopedBufs c (fun b => m ((c : Thread nD τ).loc b))
            = StableHlo.held (c : Thread nD τ) (Pipeline.ucRefs τ sig) (W0 m ρ c)
          from Pipeline.unscopedBufs_held c (W0 m ρ c)]
      iintro ⟨⟨Hbufs, -, Hdebt, -, Hreg, -⟩, -⟩
      imodintro
      isplitl [Hbufs]
      · iexact Hbufs
      isplitl [Hreg]
      · iexists _
        iexact Hreg
      · iexists ∅
        iexact Hdebt)
    (QY := fun c s => ∀ b ∈ Pipeline.ucRefs τ sig, s.mem (((c : Thread nD τ)).1, b) = W9 m ρ c b)
    (hfin := fun c s' => by
      -- buffers held at the last boundary's contents are read off the final state at those contents
      iintro ⟨⟨Hbufs, -⟩, Hstate⟩
      unfold StableHlo.held
      imodintro
      iapply (pointsTo_read_all (Pipeline.ucRefs τ sig) (fun b => (((c : Thread nD τ)).1, b)) (W9 m ρ c) s')
      isplitl [Hbufs] <;> iassumption)
    (hQ := fun _ h => h)

/-- The result buffer ends at the last boundary's contents, and the ten arguments as launched. -/
theorem run : θ_run defs (onTc (τ := τ) (main (F := F))) ⟨m, fun _ => 0, ρ⟩ (fun r => ∀ c : Dev nD,
      r.2.mem ((c.tc : Thread nD τ).loc main_v67) = W9 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v67 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c)⟩)
    (run_all m ρ)

end Cert.KernelIdeal.RunValue

end
-- ==== Proof.KernelHost.lean ====
/-
  The idealized kernel's host operations, stretch by stretch, as functions of the buffers they read.
  Before the first dense layer's pallas_call: the two degree normalisations `Spec.norm` of the edge lists, and the
  first normalised neighbourhood sum `Spec.agg` of the input features — the array the call reads.
  Between the two calls: the same neighbourhood sum of the first layer's output — the array the second call reads.
  After the second call: mean pooling per graph and the dense head, `Spec.head`, of the second layer's output.
  No host operation writes an argument, so an argument's buffer passes through every stretch.
-/
import proofs.«131659_j24068996727451_1_alg».proof.Proof.Gen.KernelIdeal.Launch
import proofs.«131659_j24068996727451_1_alg».proof.Proof.Gen.ReferenceIdeal
import proofs.«131659_j24068996727451_1_alg».proof.Proof.Spec
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]

/-- The buffer contents after the five stretches of host operations that precede the first pallas_call. -/
abbrev before0 (V : Valuation τ sig (Elt F)) : Valuation τ sig (Elt F) :=
  after hostOps0_4 (after hostOps0_3 (after hostOps0_2 (after hostOps0_1 (after hostOps0 V))))

set_option maxRecDepth 8192 in
set_option maxHeartbeats 4000000 in
/-- The out-degree normalisation, from the edges' sources. -/
theorem before0_v11 (V : Valuation τ sig (Elt F)) :
    before0 V (main_v11 : DevRef τ sig) = Cert.Spec.norm (F := F) (V (main_arg1 : DevRef τ sig)) := by
  dsimp only [before0, hostOps0, hostOps0_1, hostOps0_2, hostOps0_3, hostOps0_4]
  after_results_simp <;> rfl

set_option maxRecDepth 8192 in
set_option maxHeartbeats 4000000 in
/-- The in-degree normalisation, from the edges' destinations. -/
theorem before0_v16 (V : Valuation τ sig (Elt F)) :
    before0 V (main_v16 : DevRef τ sig) = Cert.Spec.norm (F := F) (V (main_arg2 : DevRef τ sig)) := by
  dsimp only [before0, hostOps0, hostOps0_1, hostOps0_2, hostOps0_3, hostOps0_4]
  after_results_simp <;> rfl

set_option maxRecDepth 8192 in
set_option maxHeartbeats 8000000 in
/-- The array the first pallas_call reads: the normalised neighbourhood sum of the input features. -/
theorem before0_v32 (V : Valuation τ sig (Elt F)) :
    before0 V (main_v32 : DevRef τ sig)
      = Cert.Spec.agg (F := F) (V (main_arg0 : DevRef τ sig)) (V (main_arg1 : DevRef τ sig)) (V (main_arg2 : DevRef τ sig))
          (Cert.Spec.norm (F := F) (V (main_arg1 : DevRef τ sig))) (Cert.Spec.norm (F := F) (V (main_arg2 : DevRef τ sig))) := by
  dsimp only [before0, hostOps0, hostOps0_1, hostOps0_2, hostOps0_3, hostOps0_4]
  after_results_simp <;> rfl

set_option maxRecDepth 8192 in
set_option maxHeartbeats 4000000 in
theorem before0_arg1 (V : Valuation τ sig (Elt F)) : before0 V (main_arg1 : DevRef τ sig) = V (main_arg1 : DevRef τ sig) := by
  dsimp only [before0, hostOps0, hostOps0_1, hostOps0_2, hostOps0_3, hostOps0_4]
  after_results_simp <;> rfl
set_option maxRecDepth 8192 in
set_option maxHeartbeats 4000000 in
theorem before0_arg2 (V : Valuation τ sig (Elt F)) : before0 V (main_arg2 : DevRef τ sig) = V (main_arg2 : DevRef τ sig) := by
  dsimp only [before0, hostOps0, hostOps0_1, hostOps0_2, hostOps0_3, hostOps0_4]
  after_results_simp <;> rfl
set_option maxRecDepth 8192 in
set_option maxHeartbeats 4000000 in
theorem before0_arg3 (V : Valuation τ sig (Elt F)) : before0 V (main_arg3 : DevRef τ sig) = V (main_arg3 : DevRef τ sig) := by
  dsimp only [before0, hostOps0, hostOps0_1, hostOps0_2, hostOps0_3, hostOps0_4]
  after_results_simp <;> rfl
set_option maxRecDepth 8192 in
set_option maxHeartbeats 4000000 in
theorem before0_arg4 (V : Valuation τ sig (Elt F)) : before0 V (main_arg4 : DevRef τ sig) = V (main_arg4 : DevRef τ sig) := by
  dsimp only [before0, hostOps0, hostOps0_1, hostOps0_2, hostOps0_3, hostOps0_4]
  after_results_simp <;> rfl
set_option maxRecDepth 8192 in
set_option maxHeartbeats 4000000 in
theorem before0_arg5 (V : Valuation τ sig (Elt F)) : before0 V (main_arg5 : DevRef τ sig) = V (main_arg5 : DevRef τ sig) := by
  dsimp only [before0, hostOps0, hostOps0_1, hostOps0_2, hostOps0_3, hostOps0_4]
  after_results_simp <;> rfl
set_option maxRecDepth 8192 in
set_option maxHeartbeats 4000000 in
theorem before0_arg6 (V : Valuation τ sig (Elt F)) : before0 V (main_arg6 : DevRef τ sig) = V (main_arg6 : DevRef τ sig) := by
  dsimp only [before0, hostOps0, hostOps0_1, hostOps0_2, hostOps0_3, hostOps0_4]
  after_results_simp <;> rfl
set_option maxRecDepth 8192 in
set_option maxHeartbeats 4000000 in
theorem before0_arg7 (V : Valuation τ sig (Elt F)) : before0 V (main_arg7 : DevRef τ sig) = V (main_arg7 : DevRef τ sig) := by
  dsimp only [before0, hostOps0, hostOps0_1, hostOps0_2, hostOps0_3, hostOps0_4]
  after_results_simp <;> rfl
set_option maxRecDepth 8192 in
set_option maxHeartbeats 4000000 in
theorem before0_arg8 (V : Valuation τ sig (Elt F)) : before0 V (main_arg8 : DevRef τ sig) = V (main_arg8 : DevRef τ sig) := by
  dsimp only [before0, hostOps0, hostOps0_1, hostOps0_2, hostOps0_3, hostOps0_4]
  after_results_simp <;> rfl
set_option maxRecDepth 8192 in
set_option maxHeartbeats 4000000 in
theorem before0_arg9 (V : Valuation τ sig (Elt F)) : before0 V (main_arg9 : DevRef τ sig) = V (main_arg9 : DevRef τ sig) := by
  dsimp only [before0, hostOps0, hostOps0_1, hostOps0_2, hostOps0_3, hostOps0_4]
  after_results_simp <;> rfl

set_option maxRecDepth 8192 in
set_option maxHeartbeats 8000000 in
/-- The array the second pallas_call reads: the normalised neighbourhood sum of the first layer's output, with the
    normalisations computed before the first call. -/
theorem between_v49 (V : Valuation τ sig (Elt F)) :
    after hostOps1 V (main_v49 : DevRef τ sig)
      = Cert.Spec.agg (F := F) (V (main_v33 : DevRef τ sig)) (V (main_arg1 : DevRef τ sig)) (V (main_arg2 : DevRef τ sig))
          (V (main_v11 : DevRef τ sig)) (V (main_v16 : DevRef τ sig)) := by
  dsimp only [hostOps1]
  after_results_simp <;> rfl

set_option maxRecDepth 8192 in
set_option maxHeartbeats 4000000 in
theorem between_arg3 (V : Valuation τ sig (Elt F)) : after hostOps1 V (main_arg3 : DevRef τ sig) = V (main_arg3 : DevRef τ sig) := by
  dsimp only [hostOps1]
  after_results_simp <;> rfl
set_option maxRecDepth 8192 in
set_option maxHeartbeats 4000000 in
theorem between_arg6 (V : Valuation τ sig (Elt F)) : after hostOps1 V (main_arg6 : DevRef τ sig) = V (main_arg6 : DevRef τ sig) := by
  dsimp only [hostOps1]
  after_results_simp <;> rfl
set_option maxRecDepth 8192 in
set_option maxHeartbeats 4000000 in
theorem between_arg7 (V : Valuation τ sig (Elt F)) : after hostOps1 V (main_arg7 : DevRef τ sig) = V (main_arg7 : DevRef τ sig) := by
  dsimp only [hostOps1]
  after_results_simp <;> rfl
set_option maxRecDepth 8192 in
set_option maxHeartbeats 4000000 in
theorem between_arg8 (V : Valuation τ sig (Elt F)) : after hostOps1 V (main_arg8 : DevRef τ sig) = V (main_arg8 : DevRef τ sig) := by
  dsimp only [hostOps1]
  after_results_simp <;> rfl
set_option maxRecDepth 8192 in
set_option maxHeartbeats 4000000 in
theorem between_arg9 (V : Valuation τ sig (Elt F)) : after hostOps1 V (main_arg9 : DevRef τ sig) = V (main_arg9 : DevRef τ sig) := by
  dsimp only [hostOps1]
  after_results_simp <;> rfl

set_option maxRecDepth 8192 in
set_option maxHeartbeats 8000000 in
/-- The result: mean pooling per graph and the dense head of the second layer's output. -/
theorem last_v67 (V : Valuation τ sig (Elt F)) :
    after hostOps2 V (main_v67 : DevRef τ sig)
      = Cert.Spec.head (F := F) (V (main_v50 : DevRef τ sig)) (V (main_arg3 : DevRef τ sig)) (V (main_arg8 : DevRef τ sig))
          (V (main_arg9 : DevRef τ sig)) := by
  dsimp only [hostOps2]
  after_results_simp <;> rfl

end Cert.KernelIdeal.HostSide

end
-- ==== Proof.DenseRows.lean ====
/-
  A dense layer read one entry at a time.

  Both programs compute, for a matrix `x` with 128 columns, a 128 × 128 matrix `w` and a bias row `b`, the matrix
  `max (x · w + b, 0)`. At the ideal instance every operation is exact, so entry (r, q) of that matrix is

      max ((∑ k < 128, x (r, k) * w (k, q)) + b q) 0

  whichever program forms it: the specification's `dot_general` followed by two broadcasts of the bias and a
  broadcast zero, or the kernel body's matrix product into a zero accumulator (its narrowing of the operands to a
  shorter format is the identity on ideal values) followed by the bias row stretched over the rows and a splat zero.
  Only the row count differs: 10000 for the whole array, 1000 for one block of rows.

  The one step that is not a direct reading is the product: with a single contracted axis the contraction index is one
  number k < 128, the left operand is read at (r, k) and the right operand at (k, q).
-/
import proofs.«131659_j24068996727451_1_alg».proof.Proof.Spec
import proofs.«131659_j24068996727451_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.Dense

open Idealize.ShloMosaic Idealize.ShloMosaic.ValueIdx

/-! ## The whole array: 10000 rows -/

section WholeArray

open Cert.ReferenceIdeal Cert.ReferenceIdeal.Facts₀ Cert.ReferenceIdeal.Facts

variable [Cert.ReferenceIdeal.Facts]

/-- The product's dimension numbers: the left operand's axis 1 is contracted against the right operand's axis 0. -/
abbrev DH : DotDims S10000x128 S128x128 S10000x128 := dot_S10000x128_S128x128_S10000x128_1_0_0_1_n_n

/-- One axis is contracted, -/
theorem DH_rank : DH.contr.rank = 1 := by rw [DotDims.rank_contr]; rfl

/-- of extent 128. -/
theorem DH_size : DH.contr.size ⟨0, by rw [DH_rank]; exact Nat.one_pos⟩ = 128 := by
  rw [DH.size_contr 0 (show 0 < DH.lhsContracting.length from Nat.one_pos)]; rfl

/-- At output entry (i, q) and contraction position k the left operand is read at (i, k): the free axis carries the
    output's row, the contracted axis carries k. -/
theorem DH_lhs (i : Fin 10000) (q k : Fin 128) :
    DH.lhsIdx (ix2 i q) ((contrEquiv1 DH 128 DH_rank DH_size).symm k) = ix2 i k := by
  funext a; apply Fin.ext
  match a with
  | ⟨0, _⟩ => simp [DotDims.lhsIdx, DH, dot_S10000x128_S128x128_S10000x128_1_0_0_1_n_n]; rfl
  | ⟨1, _⟩ =>
    show (DH.lhsIdx (ix2 i q) ((contrEquiv1 DH 128 DH_rank DH_size).symm k) (1 : Fin 2)).val = k.val
    rw [DH.lhsIdx_val_of_single (cl := (1 : Fin 2)) rfl]
    exact contrEquiv1_symm_val DH 128 DH_rank DH_size k

/-- … and the right operand at (k, q): the contracted axis carries k, the free axis the output's column. -/
theorem DH_rhs (i : Fin 10000) (q k : Fin 128) :
    DH.rhsIdx (ix2 i q) ((contrEquiv1 DH 128 DH_rank DH_size).symm k) = ix2 k q := by
  funext a; apply Fin.ext
  match a with
  | ⟨0, _⟩ =>
    show (DH.rhsIdx (ix2 i q) ((contrEquiv1 DH 128 DH_rank DH_size).symm k) (0 : Fin 2)).val = k.val
    rw [DH.rhsIdx_val_of_single (cr := (0 : Fin 2)) rfl]
    exact contrEquiv1_symm_val DH 128 DH_rank DH_size k
  | ⟨1, _⟩ => simp [DotDims.rhsIdx, DH, dot_S10000x128_S128x128_S10000x128_1_0_0_1_n_n]; rfl

/-- THE SPECIFICATION'S LAYER at row i, column q: the sum over k of x (i, k) * w (k, q), plus the bias of column q,
    negative values replaced by 0. The product is the sum over the contraction index re-indexed by k; the bias is read
    through its two broadcasts ([128] → [1, 128] → [10000, 128]) at column q; the zero is the broadcast scalar 0. -/
theorem layer_apply (x : (⟨S10000x128, .f32⟩ : BufTy).Contents (Elt Ideal)) (w : (⟨S128x128, .f32⟩ : BufTy).Contents (Elt Ideal))
    (b : (⟨S128, .f32⟩ : BufTy).Contents (Elt Ideal)) (i : Fin 10000) (q : Fin 128) :
    Cert.Spec.layer (F := Ideal) x w b (ix2 i q) = max ((∑ k : Fin 128, x (ix2 i k) * w (ix2 k q)) + b (ix1 q)) 0 := by
  unfold Cert.Spec.layer
  have hdot : ∀ (X : FVec Ideal S10000x128 .f32) (W : FVec Ideal S128x128 .f32),
      FloatOps.dotGeneral DH none .single X W (ix2 i q) = ∑ k : Fin 128, X (ix2 i k) * W (ix2 k q) := by
    intro X W
    rw [Ideal.dotGeneral_apply, ← Equiv.sum_comp (contrEquiv1 DH 128 DH_rank DH_size).symm]
    exact Finset.sum_congr rfl fun k _ => by rw [DH_lhs i q k, DH_rhs i q k]
  have hb : (broadcastInDim S10000x128 ![0, 1] bcast_S1x128_S10000x128_0_1
        (broadcastInDim S1x128 ![1] bcast_S128_S1x128_1 b) : FVec Ideal S10000x128 .f32) (ix2 i q) = b (ix1 q) :=
    (broadcastInDim_apply ![0, 1] bcast_S1x128_S10000x128_0_1 _ (ix2 i q) (ix2 (0 : Fin 1) q)
        (fun a => by match a with | ⟨0, _⟩ => rfl | ⟨1, _⟩ => rfl)).trans
      (broadcastInDim_apply ![1] bcast_S128_S1x128_1 b (ix2 (0 : Fin 1) q) (ix1 q)
        (fun a => by match a with | ⟨0, _⟩ => rfl))
  have hz : (broadcastInDim S10000x128 ![] bcast_S_S10000x128
        (constant (F := Ideal) S_ .f32 0x00000000#32) : FVec Ideal S10000x128 .f32) (ix2 i q) = (0 : EReal) :=
    (broadcastInDim_apply ![] bcast_S_S10000x128 _ (ix2 i q) ix0 (fun a => a.elim0)).trans Ideal.ofBits_zero_f32
  exact congrArg₂ max (congrArg₂ (· + ·) (hdot x w) hb) hz

end WholeArray

/-! ## One block of rows: 1000 rows -/

section RowBlock

open Cert.KernelIdeal Cert.KernelIdeal.Facts₀ Cert.KernelIdeal.Facts

variable [Cert.KernelIdeal.Facts]

/-- The body's product has the same dimension numbers on a block of 1000 rows. -/
abbrev DK : DotDims S1000x128 S128x128 S1000x128 := dot_S1000x128_S128x128_S1000x128_1_0_0_1_n_n

theorem DK_rank : DK.contr.rank = 1 := by rw [DotDims.rank_contr]; rfl

theorem DK_size : DK.contr.size ⟨0, by rw [DK_rank]; exact Nat.one_pos⟩ = 128 := by
  rw [DK.size_contr 0 (show 0 < DK.lhsContracting.length from Nat.one_pos)]; rfl

/-- At block entry (p, q) and contraction position k the left operand is read at (p, k), -/
theorem DK_lhs (p : Fin 1000) (q k : Fin 128) :
    DK.lhsIdx (ix2 p q) ((contrEquiv1 DK 128 DK_rank DK_size).symm k) = ix2 p k := by
  funext a; apply Fin.ext
  match a with
  | ⟨0, _⟩ => simp [DotDims.lhsIdx, DK, dot_S1000x128_S128x128_S1000x128_1_0_0_1_n_n]; rfl
  | ⟨1, _⟩ =>
    show (DK.lhsIdx (ix2 p q) ((contrEquiv1 DK 128 DK_rank DK_size).symm k) (1 : Fin 2)).val = k.val
    rw [DK.lhsIdx_val_of_single (cl := (1 : Fin 2)) rfl]
    exact contrEquiv1_symm_val DK 128 DK_rank DK_size k

/-- and the right operand at (k, q). -/
theorem DK_rhs (p : Fin 1000) (q k : Fin 128) :
    DK.rhsIdx (ix2 p q) ((contrEquiv1 DK 128 DK_rank DK_size).symm k) = ix2 k q := by
  funext a; apply Fin.ext
  match a with
  | ⟨0, _⟩ =>
    show (DK.rhsIdx (ix2 p q) ((contrEquiv1 DK 128 DK_rank DK_size).symm k) (0 : Fin 2)).val = k.val
    rw [DK.rhsIdx_val_of_single (cr := (0 : Fin 2)) rfl]
    exact contrEquiv1_symm_val DK 128 DK_rank DK_size k
  | ⟨1, _⟩ => simp [DotDims.rhsIdx, DK, dot_S1000x128_S128x128_S1000x128_1_0_0_1_n_n]; rfl

/-- THE BODY'S VALUE on a block, at row p, column q of the block: the same expression of the block of x, of w and of
    b. Narrowing the operands is the identity on ideal values and the cast of the block to its own shape is the
    identity; the product into the zero accumulator is the bare sum; the bias row is read through its cast to one row
    and its stretch over the 1000 rows at column q; the splat zero is 0. -/
theorem pay0_apply (v0 : Vec Ideal S1000x128 .f32) (v3 : Vec Ideal S128x128 .f32) (v6 : Vec Ideal S128 .f32)
    (p : Fin 1000) (q : Fin 128) :
    Gen.k0_pay1 (F := Ideal) v0 v3 v6 (ix2 p q) = max ((∑ k : Fin 128, v0 (ix2 p k) * v3 (ix2 k q)) + v6 (ix1 q)) 0 := by
  unfold Gen.k0_pay1
  have hmm : ∀ (X : FVec Ideal S1000x128 .bf16) (W : FVec Ideal S128x128 .bf16),
      FloatOps.matmul DK none X W (constant S1000x128 .f32 0x00000000#32) (ix2 p q) = ∑ k : Fin 128, X (ix2 p k) * W (ix2 k q) := by
    intro X W
    rw [Ideal.matmul_constant_zero_apply, ← Equiv.sum_comp (contrEquiv1 DK 128 DK_rank DK_size).symm]
    exact Finset.sum_congr rfl fun k _ => by rw [DK_lhs p q k, DK_rhs p q k]
  have hx : (shapeCast S1000x128 v0 shapeCasts_S1000x128_S1000x128 : Vec Ideal S1000x128 .f32) = v0 := shapeCast_self v0 _
  have hb : (broadcastTo S1000x128 (shapeCast S1x128 v6 shapeCasts_S128_S1x128) broadcasts_S1x128_S1000x128 : Vec Ideal S1000x128 .f32) (ix2 p q)
      = v6 (ix1 q) :=
    (broadcastTo_apply _ broadcasts_S1x128_S1000x128 (ix2 p q) (ix2 (0 : Fin 1) q)
        (fun a => by match a with | ⟨0, _⟩ => rfl | ⟨1, _⟩ => rfl)).trans
      ((shapeCast_addUnit_apply (n := 1) ![128] v6 shapeCasts_S128_S1x128 (ix2 (0 : Fin 1) q)).trans
        (congrArg v6 (funext fun a => by match a with | ⟨0, _⟩ => rfl)))
  have hz : (broadcast S1000x128 (FloatOps.ofBits (F := Ideal) .f32 0x00000000#32) : FVec Ideal S1000x128 .f32) (ix2 p q) = (0 : EReal) :=
    Ideal.ofBits_zero_f32
  rw [hx]
  exact congrArg₂ max (congrArg₂ (· + ·) (hmm v0 v3) hb) hz

/-- The second layer runs the same body: its value is the same term of its three operands. -/
theorem pay1_eq_pay0 (v0 : Vec Ideal S1000x128 .f32) (v3 : Vec Ideal S128x128 .f32) (v6 : Vec Ideal S128 .f32) :
    Gen.k1_pay1 (F := Ideal) v0 v3 v6 = Gen.k0_pay1 (F := Ideal) v0 v3 v6 := rfl

/-- So it has the same entries. -/
theorem pay1_apply (v0 : Vec Ideal S1000x128 .f32) (v3 : Vec Ideal S128x128 .f32) (v6 : Vec Ideal S128 .f32)
    (p : Fin 1000) (q : Fin 128) :
    Gen.k1_pay1 (F := Ideal) v0 v3 v6 (ix2 p q) = max ((∑ k : Fin 128, v0 (ix2 p k) * v3 (ix2 k q)) + v6 (ix1 q)) 0 :=
  (congrFun (pay1_eq_pay0 v0 v3 v6) (ix2 p q)).trans (pay0_apply v0 v3 v6 p q)

end RowBlock

end Cert.Dense

end
-- ==== Proof.DenseBlocks.lean ====
/-
  Each dense layer of the kernel is a pallas_call over ten grid points. Point t reads rows 1000 t … 1000 t + 999 of the
  layer's input array, the whole weight matrix and the whole bias vector, and writes rows 1000 t … 1000 t + 999 of the
  output array. Entry (p, q) of the block it writes is max ((∑ k, x (1000 t + p, k) · w (k, q)) + b q, 0), which is entry
  (1000 t + p, q) of the whole-array dense layer `Spec.layer` of the arrays the call read. So what point t writes back is
  block t of `Spec.layer`, and since the ten blocks cover the output array, the array after the call IS `Spec.layer` of
  the arrays as the call found them — for any contents `V` of the buffers at the call's entry. The two calls are the same
  kernel on different buffers, and the same argument is written for each.
-/
import proofs.«131659_j24068996727451_1_alg».proof.Proof.Gen.KernelIdeal.Frame
import proofs.«131659_j24068996727451_1_alg».proof.Proof.Gen.ReferenceIdeal
import proofs.«131659_j24068996727451_1_alg».proof.Proof.Spec
import proofs.«131659_j24068996727451_1_alg».proof.Proof.DenseRows
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.Dense

open Cert.KernelIdeal Cert.KernelIdeal.Gen

variable (V : (c : Dev nD) → (b : Ref sig .tc) → Buf (Elt Ideal) ((c : Thread nD τ).loc b)) (c : Dev nD)

theorem zero2 : (![0, 0] : Fin 2 → Nat) = fun _ => 0 := funext fun a => by fin_cases a <;> rfl
theorem zero1 : (![0] : Fin 1 → Nat) = fun _ => 0 := funext fun a => by fin_cases a <;> rfl

/-! ## The first dense layer -/

/-- Where the first call's blocks sit: the input rows and the output rows move with the grid point, the weights and the bias do not. -/
theorem where0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

theorem rows0 (t : Fin cfg0.N) (y : S1000x128.Idx) (i : S10000x128.Idx)
    (h0 : (i 0).val = 1000 * t.val + (y 0).val) (h1 : (i 1).val = (y 1).val) :
    (iblk0 V c 0 t : Vec Ideal S1000x128 .f32) y = (V c main_v32 : S10000x128.Idx → Elt Ideal .f32) i := by
  obtain ⟨e0, e1, -⟩ := where0 t
  unfold iblk0
  rw [View.read_apply]
  show (V c main_v32 : S10000x128.Idx → Elt Ideal .f32) (((cfg0.win 0).blk t).view.emb y) = _
  congr 1
  funext a
  apply Fin.ext
  match a with
  | ⟨0, _⟩ => show win0_0.index t 0 * 1000 + 1 * (y 0).val = (i 0).val; rw [e0, h0]; omega
  | ⟨1, _⟩ => show win0_0.index t 1 * 128 + 1 * (y 1).val = (i 1).val; rw [e1, h1]; omega

theorem weights0 (t : Fin cfg0.N) (y : S128x128.Idx) :
    (iblk0 V c 1 t : Vec Ideal S128x128 .f32) y = (V c main_arg4 : S128x128.Idx → Elt Ideal .f32) y := by
  obtain ⟨-, -, e2, e3, -⟩ := where0 t
  unfold iblk0
  rw [View.read_apply]
  show (V c main_arg4 : S128x128.Idx → Elt Ideal .f32) (((cfg0.win 1).blk t).view.emb y) = _
  congr 1
  funext a
  apply Fin.ext
  match a with
  | ⟨0, _⟩ => show win0_1.index t 0 * 128 + 1 * (y 0).val = (y 0).val; rw [e2]; omega
  | ⟨1, _⟩ => show win0_1.index t 1 * 128 + 1 * (y 1).val = (y 1).val; rw [e3]; omega

theorem bias0 (t : Fin cfg0.N) (y : S128.Idx) :
    (iblk0 V c 2 t : Vec Ideal S128 .f32) y = (V c main_arg5 : S128.Idx → Elt Ideal .f32) y := by
  obtain ⟨-, -, -, -, e4, -⟩ := where0 t
  unfold iblk0
  rw [View.read_apply]
  show (V c main_arg5 : S128.Idx → Elt Ideal .f32) (((cfg0.win 2).blk t).view.emb y) = _
  congr 1
  funext a
  apply Fin.ext
  match a with
  | ⟨0, _⟩ => show win0_2.index t 0 * 128 + 1 * (y 0).val = (y 0).val; rw [e4]; omega

/-- One entry of a block of the kernel's dense layer is the entry of the whole-array dense layer in the block's row. -/
theorem block_entry (x0 : Vec Ideal S1000x128 .f32) (x1 : Vec Ideal S128x128 .f32) (x2 : Vec Ideal S128 .f32)
    (X : (⟨Cert.ReferenceIdeal.S10000x128, .f32⟩ : BufTy).Contents (Elt Ideal))
    (W : (⟨Cert.ReferenceIdeal.S128x128, .f32⟩ : BufTy).Contents (Elt Ideal)) (B : (⟨Cert.ReferenceIdeal.S128, .f32⟩ : BufTy).Contents (Elt Ideal))
    (p : Fin 1000) (r : Fin 10000) (q : Fin 128)
    (hx0 : ∀ k : Fin 128, x0 (ix2 p k) = X (ix2 r k)) (hx1 : ∀ (k q' : Fin 128), x1 (ix2 k q') = W (ix2 k q'))
    (hx2 : ∀ q' : Fin 128, x2 (ix1 q') = B (ix1 q')) :
    k0_pay1 (F := Ideal) x0 x1 x2 (ix2 p q) = Cert.Spec.layer (F := Ideal) X W B (ix2 r q) := by
  rw [pay0_apply, layer_apply]
  simp only [hx0, hx1, hx2]

theorem flushed0 (t : Fin cfg0.N) :
    (dat0 (F := Ideal) V c).flushed 3 t
      = ((cfg0.win 3).blk t).view.read (Elt Ideal)
          (Cert.Spec.layer (F := Ideal) (V c main_v32) (V c main_arg4) (V c main_arg5)) := by
  show (cfg0.win 3).cut (grid0.coords t) ((dat0 V c).after 3 t) = _
  rw [after0_3]
  unfold out0_3
  rw [View.canon_unit_zero zero2]
  simp only [View.ld_unit_zero (S := S1000x128) zero2, View.ld_unit_zero (S := S128x128) zero2, View.ld_unit_zero (S := S128) zero1]
  funext j
  obtain ⟨-, -, -, -, -, e5, e6⟩ := where0 t
  have hN : cfg0.N = 10 := N_0
  have ht : t.val < 10 := hN ▸ t.isLt
  have hj0 : (j 0).val < 1000 := (j 0).isLt
  have hj1 : (j 1).val < 128 := (j 1).isLt
  show k0_pay1 (F := Ideal) (iblk0 V c 0 t) (iblk0 V c 1 t) (iblk0 V c 2 t) j
    = Cert.Spec.layer (F := Ideal) (V c main_v32) (V c main_arg4) (V c main_arg5) (((cfg0.win 3).blk t).view.emb j)
  have hj : (j : S1000x128.Idx) = ix2 (⟨(j 0).val, hj0⟩ : Fin 1000) (⟨(j 1).val, hj1⟩ : Fin 128) := by
    funext a; apply Fin.ext
    match a with
    | ⟨0, _⟩ => rfl
    | ⟨1, _⟩ => rfl
  have hi : (((cfg0.win 3).blk t).view.emb j : S10000x128.Idx)
      = ix2 (⟨1000 * t.val + (j 0).val, by omega⟩ : Fin 10000) (⟨(j 1).val, hj1⟩ : Fin 128) := by
    funext a; apply Fin.ext
    match a with
    | ⟨0, _⟩ => show win0_3.index t 0 * 1000 + 1 * (j 0).val = 1000 * t.val + (j 0).val; rw [e5]; omega
    | ⟨1, _⟩ => show win0_3.index t 1 * 128 + 1 * (j 1).val = (j 1).val; rw [e6]; omega
  refine (congrArg (k0_pay1 (F := Ideal) (iblk0 V c 0 t) (iblk0 V c 1 t) (iblk0 V c 2 t)) hj).trans
    ((block_entry (iblk0 V c 0 t) (iblk0 V c 1 t) (iblk0 V c 2 t) (V c main_v32) (V c main_arg4) (V c main_arg5)
      ⟨(j 0).val, hj0⟩ ⟨1000 * t.val + (j 0).val, by omega⟩ ⟨(j 1).val, hj1⟩
      (fun k => rows0 V c t _ _ rfl rfl) (fun k q' => weights0 V c t _) (fun q' => bias0 V c t _)).trans
      (congrArg (Cert.Spec.layer (F := Ideal) (V c main_v32) (V c main_arg4) (V c main_arg5)) hi.symm))

/-- An index of the layer's output array lies in grid point `t`'s block iff its row is among the block's thousand rows. -/
theorem mem_block0 (t : Fin cfg0.N) (i : S10000x128.Idx) :
    i ∈ ((cfg0.win 3).blk t).view.set
      ↔ ∀ a : Fin 2, win0_3.index t a * S1000x128.size a ≤ (i a).val ∧ (i a).val < win0_3.index t a * S1000x128.size a + S1000x128.size a := by
  show i ∈ ((View.whole main_v33).slice (win0_3.rect t)).set ↔ _
  rw [View.set_slice_whole, Rect.mem_set_unit]
  exact Iff.rfl

/-- The ten blocks of a thousand rows cover the array, so after the call the output array is the dense layer of the
    array the call read. -/
theorem region0_array :
    (dat0 (F := Ideal) V c).arrAt 3 cfg0.N
      = Cert.Spec.layer (F := Ideal) (V c main_v32) (V c main_arg4) (V c main_arg5) :=
  (dat0 (F := Ideal) V c).arrAt_eq_of_cover 3 _ (fun t _ => flushed0 V c t) fun i => by
    have hN : cfg0.N = 10 := N_0
    have hi0 : (i 0).val < 10000 := (i 0).isLt
    have hi1 : (i 1).val < 128 := (i 1).isLt
    have hlt : (i 0).val / 1000 < cfg0.N := by rw [hN]; omega
    refine ⟨⟨(i 0).val / 1000, hlt⟩, flush0_3 _, ?_⟩
    rw [mem_block0]
    obtain ⟨-, -, -, -, -, e5, e6⟩ := where0 ⟨(i 0).val / 1000, hlt⟩
    intro a
    match a with
    | ⟨0, _⟩ =>
      show win0_3.index ⟨(i 0).val / 1000, hlt⟩ 0 * 1000 ≤ (i 0).val ∧ (i 0).val < win0_3.index ⟨(i 0).val / 1000, hlt⟩ 0 * 1000 + 1000
      rw [e5]; show (i 0).val / 1000 * 1000 ≤ (i 0).val ∧ (i 0).val < (i 0).val / 1000 * 1000 + 1000; omega
    | ⟨1, _⟩ =>
      show win0_3.index ⟨(i 0).val / 1000, hlt⟩ 1 * 128 ≤ (i 1).val ∧ (i 1).val < win0_3.index ⟨(i 0).val / 1000, hlt⟩ 1 * 128 + 128
      rw [e6]; omega

/-! ## The second dense layer -/

/-- Where the second call's blocks sit: the input rows and the output rows move with the grid point, the weights and the bias do not. -/
theorem where1 : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

theorem rows1 (t : Fin cfg1.N) (y : S1000x128.Idx) (i : S10000x128.Idx)
    (h0 : (i 0).val = 1000 * t.val + (y 0).val) (h1 : (i 1).val = (y 1).val) :
    (iblk1 V c 0 t : Vec Ideal S1000x128 .f32) y = (V c main_v49 : S10000x128.Idx → Elt Ideal .f32) i := by
  obtain ⟨e0, e1, -⟩ := where1 t
  unfold iblk1
  rw [View.read_apply]
  show (V c main_v49 : S10000x128.Idx → Elt Ideal .f32) (((cfg1.win 0).blk t).view.emb y) = _
  congr 1
  funext a
  apply Fin.ext
  match a with
  | ⟨0, _⟩ => show win1_0.index t 0 * 1000 + 1 * (y 0).val = (i 0).val; rw [e0, h0]; omega
  | ⟨1, _⟩ => show win1_0.index t 1 * 128 + 1 * (y 1).val = (i 1).val; rw [e1, h1]; omega

theorem weights1 (t : Fin cfg1.N) (y : S128x128.Idx) :
    (iblk1 V c 1 t : Vec Ideal S128x128 .f32) y = (V c main_arg6 : S128x128.Idx → Elt Ideal .f32) y := by
  obtain ⟨-, -, e2, e3, -⟩ := where1 t
  unfold iblk1
  rw [View.read_apply]
  show (V c main_arg6 : S128x128.Idx → Elt Ideal .f32) (((cfg1.win 1).blk t).view.emb y) = _
  congr 1
  funext a
  apply Fin.ext
  match a with
  | ⟨0, _⟩ => show win1_1.index t 0 * 128 + 1 * (y 0).val = (y 0).val; rw [e2]; omega
  | ⟨1, _⟩ => show win1_1.index t 1 * 128 + 1 * (y 1).val = (y 1).val; rw [e3]; omega

theorem bias1 (t : Fin cfg1.N) (y : S128.Idx) :
    (iblk1 V c 2 t : Vec Ideal S128 .f32) y = (V c main_arg7 : S128.Idx → Elt Ideal .f32) y := by
  obtain ⟨-, -, -, -, e4, -⟩ := where1 t
  unfold iblk1
  rw [View.read_apply]
  show (V c main_arg7 : S128.Idx → Elt Ideal .f32) (((cfg1.win 2).blk t).view.emb y) = _
  congr 1
  funext a
  apply Fin.ext
  match a with
  | ⟨0, _⟩ => show win1_2.index t 0 * 128 + 1 * (y 0).val = (y 0).val; rw [e4]; omega

/-- One entry of a block of the kernel's dense layer is the entry of the whole-array dense layer in the block's row. -/
theorem block_entry1 (x0 : Vec Ideal S1000x128 .f32) (x1 : Vec Ideal S128x128 .f32) (x2 : Vec Ideal S128 .f32)
    (X : (⟨Cert.ReferenceIdeal.S10000x128, .f32⟩ : BufTy).Contents (Elt Ideal))
    (W : (⟨Cert.ReferenceIdeal.S128x128, .f32⟩ : BufTy).Contents (Elt Ideal)) (B : (⟨Cert.ReferenceIdeal.S128, .f32⟩ : BufTy).Contents (Elt Ideal))
    (p : Fin 1000) (r : Fin 10000) (q : Fin 128)
    (hx0 : ∀ k : Fin 128, x0 (ix2 p k) = X (ix2 r k)) (hx1 : ∀ (k q' : Fin 128), x1 (ix2 k q') = W (ix2 k q'))
    (hx2 : ∀ q' : Fin 128, x2 (ix1 q') = B (ix1 q')) :
    k1_pay1 (F := Ideal) x0 x1 x2 (ix2 p q) = Cert.Spec.layer (F := Ideal) X W B (ix2 r q) := by
  rw [pay1_apply, layer_apply]
  simp only [hx0, hx1, hx2]

theorem flushed1 (t : Fin cfg1.N) :
    (dat1 (F := Ideal) V c).flushed 3 t
      = ((cfg1.win 3).blk t).view.read (Elt Ideal)
          (Cert.Spec.layer (F := Ideal) (V c main_v49) (V c main_arg6) (V c main_arg7)) := by
  show (cfg1.win 3).cut (grid1.coords t) ((dat1 V c).after 3 t) = _
  rw [after1_3]
  unfold out1_3
  rw [View.canon_unit_zero zero2]
  simp only [View.ld_unit_zero (S := S1000x128) zero2, View.ld_unit_zero (S := S128x128) zero2, View.ld_unit_zero (S := S128) zero1]
  funext j
  obtain ⟨-, -, -, -, -, e5, e6⟩ := where1 t
  have hN : cfg1.N = 10 := N_1
  have ht : t.val < 10 := hN ▸ t.isLt
  have hj0 : (j 0).val < 1000 := (j 0).isLt
  have hj1 : (j 1).val < 128 := (j 1).isLt
  show k1_pay1 (F := Ideal) (iblk1 V c 0 t) (iblk1 V c 1 t) (iblk1 V c 2 t) j
    = Cert.Spec.layer (F := Ideal) (V c main_v49) (V c main_arg6) (V c main_arg7) (((cfg1.win 3).blk t).view.emb j)
  have hj : (j : S1000x128.Idx) = ix2 (⟨(j 0).val, hj0⟩ : Fin 1000) (⟨(j 1).val, hj1⟩ : Fin 128) := by
    funext a; apply Fin.ext
    match a with
    | ⟨0, _⟩ => rfl
    | ⟨1, _⟩ => rfl
  have hi : (((cfg1.win 3).blk t).view.emb j : S10000x128.Idx)
      = ix2 (⟨1000 * t.val + (j 0).val, by omega⟩ : Fin 10000) (⟨(j 1).val, hj1⟩ : Fin 128) := by
    funext a; apply Fin.ext
    match a with
    | ⟨0, _⟩ => show win1_3.index t 0 * 1000 + 1 * (j 0).val = 1000 * t.val + (j 0).val; rw [e5]; omega
    | ⟨1, _⟩ => show win1_3.index t 1 * 128 + 1 * (j 1).val = (j 1).val; rw [e6]; omega
  refine (congrArg (k1_pay1 (F := Ideal) (iblk1 V c 0 t) (iblk1 V c 1 t) (iblk1 V c 2 t)) hj).trans
    ((block_entry1 (iblk1 V c 0 t) (iblk1 V c 1 t) (iblk1 V c 2 t) (V c main_v49) (V c main_arg6) (V c main_arg7)
      ⟨(j 0).val, hj0⟩ ⟨1000 * t.val + (j 0).val, by omega⟩ ⟨(j 1).val, hj1⟩
      (fun k => rows1 V c t _ _ rfl rfl) (fun k q' => weights1 V c t _) (fun q' => bias1 V c t _)).trans
      (congrArg (Cert.Spec.layer (F := Ideal) (V c main_v49) (V c main_arg6) (V c main_arg7)) hi.symm))

/-- An index of the layer's output array lies in grid point `t`'s block iff its row is among the block's thousand rows. -/
theorem mem_block1 (t : Fin cfg1.N) (i : S10000x128.Idx) :
    i ∈ ((cfg1.win 3).blk t).view.set
      ↔ ∀ a : Fin 2, win1_3.index t a * S1000x128.size a ≤ (i a).val ∧ (i a).val < win1_3.index t a * S1000x128.size a + S1000x128.size a := by
  show i ∈ ((View.whole main_v50).slice (win1_3.rect t)).set ↔ _
  rw [View.set_slice_whole, Rect.mem_set_unit]
  exact Iff.rfl

/-- The ten blocks of a thousand rows cover the array, so after the call the output array is the dense layer of the
    array the call read. -/
theorem region1_array :
    (dat1 (F := Ideal) V c).arrAt 3 cfg1.N
      = Cert.Spec.layer (F := Ideal) (V c main_v49) (V c main_arg6) (V c main_arg7) :=
  (dat1 (F := Ideal) V c).arrAt_eq_of_cover 3 _ (fun t _ => flushed1 V c t) fun i => by
    have hN : cfg1.N = 10 := N_1
    have hi0 : (i 0).val < 10000 := (i 0).isLt
    have hi1 : (i 1).val < 128 := (i 1).isLt
    have hlt : (i 0).val / 1000 < cfg1.N := by rw [hN]; omega
    refine ⟨⟨(i 0).val / 1000, hlt⟩, flush1_3 _, ?_⟩
    rw [mem_block1]
    obtain ⟨-, -, -, -, -, e5, e6⟩ := where1 ⟨(i 0).val / 1000, hlt⟩
    intro a
    match a with
    | ⟨0, _⟩ =>
      show win1_3.index ⟨(i 0).val / 1000, hlt⟩ 0 * 1000 ≤ (i 0).val ∧ (i 0).val < win1_3.index ⟨(i 0).val / 1000, hlt⟩ 0 * 1000 + 1000
      rw [e5]; show (i 0).val / 1000 * 1000 ≤ (i 0).val ∧ (i 0).val < (i 0).val / 1000 * 1000 + 1000; omega
    | ⟨1, _⟩ =>
      show win1_3.index ⟨(i 0).val / 1000, hlt⟩ 1 * 128 ≤ (i 1).val ∧ (i 1).val < win1_3.index ⟨(i 0).val / 1000, hlt⟩ 1 * 128 + 128
      rw [e6]; omega

end Cert.Dense

end
-- ==== Proof.KernelValue.lean ====
/-
  The idealized kernel's result as a function of its arguments. The contents of the result buffer at the last
  segment boundary are walked back through the fold: the last host stretch is `Spec.head` of the second dense layer's
  output array; that array is `Spec.layer` of what the second pallas_call read, which the middle stretch computed as
  `Spec.agg` of the first dense layer's output array; that array is `Spec.layer` of what the first pallas_call read, which
  the opening stretches computed as `Spec.agg` of the input features; the degree normalisations `Spec.norm` are
  computed once, before the first call, and no stretch and no call writes them or an argument afterwards.
  Composed, the result is `Spec.out` of the launch contents of the ten arguments.
-/
import proofs.«131659_j24068996727451_1_alg».proof.Proof.Gen.KernelIdeal.Frame
import proofs.«131659_j24068996727451_1_alg».proof.Proof.KernelHost
import Idealize.ShloMosaic.PureOps.Ideal
import proofs.«131659_j24068996727451_1_alg».proof.Proof.DenseBlocks

noncomputable section

namespace Cert.KernelIdeal.Result

open Cert.KernelIdeal Cert.KernelIdeal.Gen Cert.KernelIdeal.HostSide
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At the first pallas_call's entry -/

theorem entry0_arg1 : V5 m ρ c main_arg1 = m ((c.tc : Thread nD τ).loc main_arg1) := before0_arg1 (W0 m ρ c)
theorem entry0_arg2 : V5 m ρ c main_arg2 = m ((c.tc : Thread nD τ).loc main_arg2) := before0_arg2 (W0 m ρ c)
theorem entry0_arg3 : V5 m ρ c main_arg3 = m ((c.tc : Thread nD τ).loc main_arg3) := before0_arg3 (W0 m ρ c)
theorem entry0_arg4 : V5 m ρ c main_arg4 = m ((c.tc : Thread nD τ).loc main_arg4) := before0_arg4 (W0 m ρ c)
theorem entry0_arg5 : V5 m ρ c main_arg5 = m ((c.tc : Thread nD τ).loc main_arg5) := before0_arg5 (W0 m ρ c)
theorem entry0_arg6 : V5 m ρ c main_arg6 = m ((c.tc : Thread nD τ).loc main_arg6) := before0_arg6 (W0 m ρ c)
theorem entry0_arg7 : V5 m ρ c main_arg7 = m ((c.tc : Thread nD τ).loc main_arg7) := before0_arg7 (W0 m ρ c)
theorem entry0_arg8 : V5 m ρ c main_arg8 = m ((c.tc : Thread nD τ).loc main_arg8) := before0_arg8 (W0 m ρ c)
theorem entry0_arg9 : V5 m ρ c main_arg9 = m ((c.tc : Thread nD τ).loc main_arg9) := before0_arg9 (W0 m ρ c)
theorem entry0_v11 : V5 m ρ c main_v11 = Cert.Spec.norm (F := Ideal) (m ((c.tc : Thread nD τ).loc main_arg1)) := before0_v11 (W0 m ρ c)
theorem entry0_v16 : V5 m ρ c main_v16 = Cert.Spec.norm (F := Ideal) (m ((c.tc : Thread nD τ).loc main_arg2)) := before0_v16 (W0 m ρ c)
theorem entry0_v32 : V5 m ρ c main_v32
    = Cert.Spec.agg (F := Ideal) (m ((c.tc : Thread nD τ).loc main_arg0)) (m ((c.tc : Thread nD τ).loc main_arg1)) (m ((c.tc : Thread nD τ).loc main_arg2))
        (Cert.Spec.norm (F := Ideal) (m ((c.tc : Thread nD τ).loc main_arg1))) (Cert.Spec.norm (F := Ideal) (m ((c.tc : Thread nD τ).loc main_arg2))) := before0_v32 (W0 m ρ c)

/-! ## At the first pallas_call's exit: its output array is the first dense layer, everything else as entered -/

/-- The first dense layer's output. -/
abbrev h1 : (⟨Cert.ReferenceIdeal.S10000x128, .f32⟩ : BufTy).Contents (Elt Ideal) :=
  Cert.Spec.layer (F := Ideal)
    (Cert.Spec.agg (F := Ideal) (m ((c.tc : Thread nD τ).loc main_arg0)) (m ((c.tc : Thread nD τ).loc main_arg1)) (m ((c.tc : Thread nD τ).loc main_arg2))
      (Cert.Spec.norm (F := Ideal) (m ((c.tc : Thread nD τ).loc main_arg1))) (Cert.Spec.norm (F := Ideal) (m ((c.tc : Thread nD τ).loc main_arg2))))
    (m ((c.tc : Thread nD τ).loc main_arg4)) (m ((c.tc : Thread nD τ).loc main_arg5))

theorem exit0_v33 : V6 m ρ c main_v33 = h1 m c := by
  refine (W6_arr m ρ c 3).trans ((Cert.Dense.region0_array (V5 m ρ) c).trans ?_)
  rw [entry0_v32, entry0_arg4, entry0_arg5]
theorem exit0_arg1 : V6 m ρ c main_arg1 = m ((c.tc : Thread nD τ).loc main_arg1) := (W6_of_ne m ρ c main_arg1 (by decide)).trans (entry0_arg1 m ρ c)
theorem exit0_arg2 : V6 m ρ c main_arg2 = m ((c.tc : Thread nD τ).loc main_arg2) := (W6_of_ne m ρ c main_arg2 (by decide)).trans (entry0_arg2 m ρ c)
theorem exit0_arg3 : V6 m ρ c main_arg3 = m ((c.tc : Thread nD τ).loc main_arg3) := (W6_of_ne m ρ c main_arg3 (by decide)).trans (entry0_arg3 m ρ c)
theorem exit0_arg6 : V6 m ρ c main_arg6 = m ((c.tc : Thread nD τ).loc main_arg6) := (W6_of_ne m ρ c main_arg6 (by decide)).trans (entry0_arg6 m ρ c)
theorem exit0_arg7 : V6 m ρ c main_arg7 = m ((c.tc : Thread nD τ).loc main_arg7) := (W6_of_ne m ρ c main_arg7 (by decide)).trans (entry0_arg7 m ρ c)
theorem exit0_arg8 : V6 m ρ c main_arg8 = m ((c.tc : Thread nD τ).loc main_arg8) := (W6_of_ne m ρ c main_arg8 (by decide)).trans (entry0_arg8 m ρ c)
theorem exit0_arg9 : V6 m ρ c main_arg9 = m ((c.tc : Thread nD τ).loc main_arg9) := (W6_of_ne m ρ c main_arg9 (by decide)).trans (entry0_arg9 m ρ c)
theorem exit0_v11 : V6 m ρ c main_v11 = Cert.Spec.norm (F := Ideal) (m ((c.tc : Thread nD τ).loc main_arg1)) := (W6_of_ne m ρ c main_v11 (by decide)).trans (entry0_v11 m ρ c)
theorem exit0_v16 : V6 m ρ c main_v16 = Cert.Spec.norm (F := Ideal) (m ((c.tc : Thread nD τ).loc main_arg2)) := (W6_of_ne m ρ c main_v16 (by decide)).trans (entry0_v16 m ρ c)

/-! ## At the second pallas_call's entry -/

theorem entry1_v49 : V7 m ρ c main_v49
    = Cert.Spec.agg (F := Ideal) (h1 m c) (m ((c.tc : Thread nD τ).loc main_arg1)) (m ((c.tc : Thread nD τ).loc main_arg2))
        (Cert.Spec.norm (F := Ideal) (m ((c.tc : Thread nD τ).loc main_arg1))) (Cert.Spec.norm (F := Ideal) (m ((c.tc : Thread nD τ).loc main_arg2))) := by
  refine (between_v49 (W6 m ρ c)).trans ?_
  show Cert.Spec.agg (F := Ideal) (V6 m ρ c main_v33) (V6 m ρ c main_arg1) (V6 m ρ c main_arg2) (V6 m ρ c main_v11) (V6 m ρ c main_v16) = _
  rw [exit0_v33 m ρ c, exit0_arg1 m ρ c, exit0_arg2 m ρ c, exit0_v11 m ρ c, exit0_v16 m ρ c]
theorem entry1_arg3 : V7 m ρ c main_arg3 = m ((c.tc : Thread nD τ).loc main_arg3) := (between_arg3 (W6 m ρ c)).trans (exit0_arg3 m ρ c)
theorem entry1_arg6 : V7 m ρ c main_arg6 = m ((c.tc : Thread nD τ).loc main_arg6) := (between_arg6 (W6 m ρ c)).trans (exit0_arg6 m ρ c)
theorem entry1_arg7 : V7 m ρ c main_arg7 = m ((c.tc : Thread nD τ).loc main_arg7) := (between_arg7 (W6 m ρ c)).trans (exit0_arg7 m ρ c)
theorem entry1_arg8 : V7 m ρ c main_arg8 = m ((c.tc : Thread nD τ).loc main_arg8) := (between_arg8 (W6 m ρ c)).trans (exit0_arg8 m ρ c)
theorem entry1_arg9 : V7 m ρ c main_arg9 = m ((c.tc : Thread nD τ).loc main_arg9) := (between_arg9 (W6 m ρ c)).trans (exit0_arg9 m ρ c)

/-! ## At the second pallas_call's exit -/

/-- The second dense layer's output. -/
abbrev h2 : (⟨Cert.ReferenceIdeal.S10000x128, .f32⟩ : BufTy).Contents (Elt Ideal) :=
  Cert.Spec.layer (F := Ideal)
    (Cert.Spec.agg (F := Ideal) (h1 m c) (m ((c.tc : Thread nD τ).loc main_arg1)) (m ((c.tc : Thread nD τ).loc main_arg2))
      (Cert.Spec.norm (F := Ideal) (m ((c.tc : Thread nD τ).loc main_arg1))) (Cert.Spec.norm (F := Ideal) (m ((c.tc : Thread nD τ).loc main_arg2))))
    (m ((c.tc : Thread nD τ).loc main_arg6)) (m ((c.tc : Thread nD τ).loc main_arg7))

theorem exit1_v50 : V8 m ρ c main_v50 = h2 m c := by
  refine (W8_arr m ρ c 3).trans ((Cert.Dense.region1_array (V7 m ρ) c).trans ?_)
  rw [entry1_v49, entry1_arg6, entry1_arg7]
theorem exit1_arg3 : V8 m ρ c main_arg3 = m ((c.tc : Thread nD τ).loc main_arg3) := (W8_of_ne m ρ c main_arg3 (by decide)).trans (entry1_arg3 m ρ c)
theorem exit1_arg8 : V8 m ρ c main_arg8 = m ((c.tc : Thread nD τ).loc main_arg8) := (W8_of_ne m ρ c main_arg8 (by decide)).trans (entry1_arg8 m ρ c)
theorem exit1_arg9 : V8 m ρ c main_arg9 = m ((c.tc : Thread nD τ).loc main_arg9) := (W8_of_ne m ρ c main_arg9 (by decide)).trans (entry1_arg9 m ρ c)

/-! ## The result -/

/-- The result buffer at the last boundary is the network's function of the launch contents of the arguments. -/
theorem result_eq : W9 m ρ c (Proc.devRef .tc main_v67)
    = Cert.Spec.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (last_v67 (W8 m ρ c)).trans ?_
  show Cert.Spec.head (F := Ideal) (V8 m ρ c main_v50) (V8 m ρ c main_arg3) (V8 m ρ c main_arg8) (V8 m ρ c main_arg9) = _
  rw [exit1_v50 m ρ c, exit1_arg3 m ρ c, exit1_arg8 m ρ c, exit1_arg9 m ρ c]
  rfl

end Cert.KernelIdeal.Result

end
-- ==== Proof.lean ====
/-
  The kernel is a two-layer graph convolution with mean pooling and a dense head: degree normalisations from the edge
  lists, then twice a normalised neighbourhood sum followed by a dense layer max (x · W + b, 0), then the mean of the node
  features per graph and a product with one column plus a scalar. The kernel runs each dense layer as a pallas_call over
  ten blocks of a thousand rows, the operands cast to bf16 and accumulated in f32 from zero; the reference runs it on the
  host as a matrix product, a broadcast bias and a maximum with zero. Everything around the dense layers is the same
  sequence of host operations in both programs.

  At the ideal instance a change of float format is the identity and a matrix product into a zero accumulator is the
  plain sum over the contracted axis, so block t of a dense layer's output is rows 1000 t … 1000 t + 999 of the
  reference's whole-array dense layer, and the ten blocks cover the array. Both programs therefore end with the result
  `Spec.out` of the ten arguments: the same function, so no property of the inputs is used.

  The frames of the two kernel programs are the generated ones; the reference's frame is its run with the result
  dropped; the idealization rewrote nothing, so there is nothing to preserve.
-/
import proofs.«131659_j24068996727451_1_alg».proof.Defs
import proofs.«131659_j24068996727451_1_alg».proof.Proof.Gen.Kernel
import proofs.«131659_j24068996727451_1_alg».proof.Proof.Gen.Kernel.Skeleton
import proofs.«131659_j24068996727451_1_alg».proof.Proof.Gen.Kernel.Launch
import proofs.«131659_j24068996727451_1_alg».proof.Proof.Gen.Kernel.Points
import proofs.«131659_j24068996727451_1_alg».proof.Proof.Gen.Kernel.Frame
import proofs.«131659_j24068996727451_1_alg».proof.Proof.Gen.KernelIdeal
import proofs.«131659_j24068996727451_1_alg».proof.Proof.Gen.KernelIdeal.Skeleton
import proofs.«131659_j24068996727451_1_alg».proof.Proof.Gen.KernelIdeal.Launch
import proofs.«131659_j24068996727451_1_alg».proof.Proof.Gen.KernelIdeal.Points
import proofs.«131659_j24068996727451_1_alg».proof.Proof.Gen.KernelIdeal.Frame
import proofs.«131659_j24068996727451_1_alg».proof.Proof.Gen.ReferenceIdeal
import proofs.«131659_j24068996727451_1_alg».proof.Proof.Gen.Pre_finite_inputs
import proofs.«131659_j24068996727451_1_alg».proof.Proof.Spec
import proofs.«131659_j24068996727451_1_alg».proof.Proof.RefRun
import proofs.«131659_j24068996727451_1_alg».proof.Proof.KernelRun
import proofs.«131659_j24068996727451_1_alg».proof.Proof.KernelValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- From memories that agree on the arguments both idealized programs end with the network's function of those
    arguments in their result buffers. -/
theorem algebraic : Cert.algebraic_KernelIdeal_ReferenceIdeal := by
  intro m ρ m' ρ' _ hagree
  refine ⟨fun c => Cert.Spec.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Result.result_eq m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7, e8, e9⟩ := hagree c
    rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
